-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 29
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4096x1024, .f32⟩
  | .hbm, ⟨16, _⟩ => ⟨S1x1024, .f32⟩
  | .hbm, ⟨17, _⟩ => ⟨S4096x1024, .bf16⟩
  | .hbm, ⟨18, _⟩ => ⟨S2x2048x1024, .bf16⟩
  | .hbm, ⟨19, _⟩ => ⟨S4096x1024, .f32⟩
  | .hbm, ⟨20, _⟩ => ⟨S1x1024, .f32⟩
  | .hbm, ⟨21, _⟩ => ⟨S4096x1024, .bf16⟩
  | .hbm, ⟨22, _⟩ => ⟨S2x2048x1024, .bf16⟩
  | .hbm, ⟨23, _⟩ => ⟨S4096x1024, .f32⟩
  | .hbm, ⟨24, _⟩ => ⟨S1x1024, .f32⟩
  | .hbm, ⟨25, _⟩ => ⟨S4096x1024, .bf16⟩
  | .hbm, ⟨26, _⟩ => ⟨S2x2048x1024, .bf16⟩
  | .hbm, ⟨27, _⟩ => ⟨S1x1024, .f32⟩
  | .hbm, ⟨28, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x2048x1024, .bf16⟩
  | .local _ .vmem, ⟨23, _⟩ => ⟨S1x2048x1024, .bf16⟩
  | .local _ .vmem, ⟨24, _⟩ => ⟨S1024x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | .local _ .vmem, ⟨28, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  bitsLt_bf16_f32 : FTy.bits .bf16 < FTy.bits .f32
  shapeCasts_S2x2048x1024_S4096x1024 : S2x2048x1024.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S512x1024_S512x64_0_0 : ∀ a, (![0, 0] : Fin 2 → Nat) a + S512x64.size a ≤ S512x1024.size a
  h_S512x64 : 0 < S512x64.numel
  shapeCasts_S512x64_S512x64 : S512x64.ShapeCasts S512x64
  packedbf16_S512x1024_S512x64_0_0 : (Rect.unit (s := S512x1024) ![0, 0] S512x64.size inb_S512x1024_S512x64_0_0).PackedRows (EltTy.packing .bf16)
  inb_S1x512x1024_S1x512x64_0_0_64 : ∀ a, (![0, 0, 64] : Fin 3 → Nat) a + S1x512x64.size a ≤ S1x512x1024.size a
  inb_S1x2048x1024_S1x2048x64_0_0_64 : ∀ a, (![0, 0, 64] : Fin 3 → Nat) a + S1x2048x64.size a ≤ S1x2048x1024.size a
  inb_S512x1024_S512x64_0_64 : ∀ a, (![0, 64] : Fin 2 → Nat) a + S512x64.size a ≤ S512x1024.size a
  packedbf16_S512x1024_S512x64_0_64 : (Rect.unit (s := S512x1024) ![0, 64] S512x64.size inb_S512x1024_S512x64_0_64).PackedRows (EltTy.packing .bf16)
  inb_S1x512x1024_S1x512x64_0_0_128 : ∀ a, (![0, 0, 128] : Fin 3 → Nat) a + S1x512x64.size a ≤ S1x512x1024.size a
  inb_S1x2048x1024_S1x2048x64_0_0_128 : ∀ a, (![0, 0, 128] : Fin 3 → Nat) a + S1x2048x64.size a ≤ S1x2048x1024.size a
  inb_S512x1024_S512x64_0_128 : ∀ a, (![0, 128] : Fin 2 → Nat) a + S512x64.size a ≤ S512x1024.size a
  packedbf16_S512x1024_S512x64_0_128 : (Rect.unit (s := S512x1024) ![0, 128] S512x64.size inb_S512x1024_S512x64_0_128).PackedRows (EltTy.packing .bf16)
  inb_S1x512x1024_S1x512x64_0_0_192 : ∀ a, (![0, 0, 192] : Fin 3 → Nat) a + S1x512x64.size a ≤ S1x512x1024.size a
  inb_S1x2048x1024_S1x2048x64_0_0_192 : ∀ a, (![0, 0, 192] : Fin 3 → Nat) a + S1x2048x64.size a ≤ S1x2048x1024.size a
  inb_S512x1024_S512x64_0_192 : ∀ a, (![0, 192] : Fin 2 → Nat) a + S512x64.size a ≤ S512x1024.size a
  packedbf16_S512x1024_S512x64_0_192 : (Rect.unit (s := S512x1024) ![0, 192] S512x64.size inb_S512x1024_S512x64_0_192).PackedRows (EltTy.packing .bf16)
  inb_S1x512x1024_S1x512x64_0_0_256 : ∀ a, (![0, 0, 256] : Fin 3 → Nat) a + S1x512x64.size a ≤ S1x512x1024.size a
  inb_S1x2048x1024_S1x2048x64_0_0_256 : ∀ a, (![0, 0, 256] : Fin 3 → Nat) a + S1x2048x64.size a ≤ S1x2048x1024.size a
  inb_S512x1024_S512x64_0_256 : ∀ a, (![0, 256] : Fin 2 → Nat) a + S512x64.size a ≤ S512x1024.size a
  packedbf16_S512x1024_S512x64_0_256 : (Rect.unit (s := S512x1024) ![0, 256] S512x64.size inb_S512x1024_S512x64_0_256).PackedRows (EltTy.packing .bf16)
  inb_S1x512x1024_S1x512x64_0_0_320 : ∀ a, (![0, 0, 320] : Fin 3 → Nat) a + S1x512x64.size a ≤ S1x512x1024.size a
  inb_S1x2048x1024_S1x2048x64_0_0_320 : ∀ a, (![0, 0, 320] : Fin 3 → Nat) a + S1x2048x64.size a ≤ S1x2048x1024.size a
  inb_S512x1024_S512x64_0_320 : ∀ a, (![0, 320] : Fin 2 → Nat) a + S512x64.size a ≤ S512x1024.size a
  packedbf16_S512x1024_S512x64_0_320 : (Rect.unit (s := S512x1024) ![0, 320] S512x64.size inb_S512x1024_S512x64_0_320).PackedRows (EltTy.packing .bf16)
  inb_S1x512x1024_S1x512x64_0_0_384 : ∀ a, (![0, 0, 384] : Fin 3 → Nat) a + S1x512x64.size a ≤ S1x512x1024.size a
  inb_S1x2048x1024_S1x2048x64_0_0_384 : ∀ a, (![0, 0, 384] : Fin 3 → Nat) a + S1x2048x64.size a ≤ S1x2048x1024.size a
  inb_S512x1024_S512x64_0_384 : ∀ a, (![0, 384] : Fin 2 → Nat) a + S512x64.size a ≤ S512x1024.size a
  packedbf16_S512x1024_S512x64_0_384 : (Rect.unit (s := S512x1024) ![0, 384] S512x64.size inb_S512x1024_S512x64_0_384).PackedRows (EltTy.packing .bf16)
  inb_S1x512x1024_S1x512x64_0_0_448 : ∀ a, (![0, 0, 448] : Fin 3 → Nat) a + S1x512x64.size a ≤ S1x512x1024.size a
  inb_S1x2048x1024_S1x2048x64_0_0_448 : ∀ a, (![0, 0, 448] : Fin 3 → Nat) a + S1x2048x64.size a ≤ S1x2048x1024.size a
  inb_S512x1024_S512x64_0_448 : ∀ a, (![0, 448] : Fin 2 → Nat) a + S512x64.size a ≤ S512x1024.size a
  packedbf16_S512x1024_S512x64_0_448 : (Rect.unit (s := S512x1024) ![0, 448] S512x64.size inb_S512x1024_S512x64_0_448).PackedRows (EltTy.packing .bf16)
  inb_S1x512x1024_S1x512x64_0_0_512 : ∀ a, (![0, 0, 512] : Fin 3 → Nat) a + S1x512x64.size a ≤ S1x512x1024.size a
  inb_S1x2048x1024_S1x2048x64_0_0_512 : ∀ a, (![0, 0, 512] : Fin 3 → Nat) a + S1x2048x64.size a ≤ S1x2048x1024.size a
  inb_S512x1024_S512x64_0_512 : ∀ a, (![0, 512] : Fin 2 → Nat) a + S512x64.size a ≤ S512x1024.size a
  packedbf16_S512x1024_S512x64_0_512 : (Rect.unit (s := S512x1024) ![0, 512] S512x64.size inb_S512x1024_S512x64_0_512).PackedRows (EltTy.packing .bf16)
  inb_S1x512x1024_S1x512x64_0_0_576 : ∀ a, (![0, 0, 576] : Fin 3 → Nat) a + S1x512x64.size a ≤ S1x512x1024.size a
  inb_S1x2048x1024_S1x2048x64_0_0_576 : ∀ a, (![0, 0, 576] : Fin 3 → Nat) a + S1x2048x64.size a ≤ S1x2048x1024.size a
  inb_S512x1024_S512x64_0_576 : ∀ a, (![0, 576] : Fin 2 → Nat) a + S512x64.size a ≤ S512x1024.size a
  packedbf16_S512x1024_S512x64_0_576 : (Rect.unit (s := S512x1024) ![0, 576] S512x64.size inb_S512x1024_S512x64_0_576).PackedRows (EltTy.packing .bf16)
  inb_S1x512x1024_S1x512x64_0_0_640 : ∀ a, (![0, 0, 640] : Fin 3 → Nat) a + S1x512x64.size a ≤ S1x512x1024.size a
  inb_S1x2048x1024_S1x2048x64_0_0_640 : ∀ a, (![0, 0, 640] : Fin 3 → Nat) a + S1x2048x64.size a ≤ S1x2048x1024.size a
  inb_S512x1024_S512x64_0_640 : ∀ a, (![0, 640] : Fin 2 → Nat) a + S512x64.size a ≤ S512x1024.size a
  packedbf16_S512x1024_S512x64_0_640 : (Rect.unit (s := S512x1024) ![0, 640] S512x64.size inb_S512x1024_S512x64_0_640).PackedRows (EltTy.packing .bf16)
  inb_S1x512x1024_S1x512x64_0_0_704 : ∀ a, (![0, 0, 704] : Fin 3 → Nat) a + S1x512x64.size a ≤ S1x512x1024.size a
  inb_S1x2048x1024_S1x2048x64_0_0_704 : ∀ a, (![0, 0, 704] : Fin 3 → Nat) a + S1x2048x64.size a ≤ S1x2048x1024.size a
  inb_S512x1024_S512x64_0_704 : ∀ a, (![0, 704] : Fin 2 → Nat) a + S512x64.size a ≤ S512x1024.size a
  packedbf16_S512x1024_S512x64_0_704 : (Rect.unit (s := S512x1024) ![0, 704] S512x64.size inb_S512x1024_S512x64_0_704).PackedRows (EltTy.packing .bf16)
  inb_S1x512x1024_S1x512x64_0_0_768 : ∀ a, (![0, 0, 768] : Fin 3 → Nat) a + S1x512x64.size a ≤ S1x512x1024.size a
  inb_S1x2048x1024_S1x2048x64_0_0_768 : ∀ a, (![0, 0, 768] : Fin 3 → Nat) a + S1x2048x64.size a ≤ S1x2048x1024.size a
  inb_S512x1024_S512x64_0_768 : ∀ a, (![0, 768] : Fin 2 → Nat) a + S512x64.size a ≤ S512x1024.size a
  packedbf16_S512x1024_S512x64_0_768 : (Rect.unit (s := S512x1024) ![0, 768] S512x64.size inb_S512x1024_S512x64_0_768).PackedRows (EltTy.packing .bf16)
  inb_S1x512x1024_S1x512x64_0_0_832 : ∀ a, (![0, 0, 832] : Fin 3 → Nat) a + S1x512x64.size a ≤ S1x512x1024.size a
  inb_S1x2048x1024_S1x2048x64_0_0_832 : ∀ a, (![0, 0, 832] : Fin 3 → Nat) a + S1x2048x64.size a ≤ S1x2048x1024.size a
  inb_S512x1024_S512x64_0_832 : ∀ a, (![0, 832] : Fin 2 → Nat) a + S512x64.size a ≤ S512x1024.size a
  packedbf16_S512x1024_S512x64_0_832 : (Rect.unit (s := S512x1024) ![0, 832] S512x64.size inb_S512x1024_S512x64_0_832).PackedRows (EltTy.packing .bf16)
  inb_S1x512x1024_S1x512x64_0_0_896 : ∀ a, (![0, 0, 896] : Fin 3 → Nat) a + S1x512x64.size a ≤ S1x512x1024.size a
  inb_S1x2048x1024_S1x2048x64_0_0_896 : ∀ a, (![0, 0, 896] : Fin 3 → Nat) a + S1x2048x64.size a ≤ S1x2048x1024.size a
  inb_S512x1024_S512x64_0_896 : ∀ a, (![0, 896] : Fin 2 → Nat) a + S512x64.size a ≤ S512x1024.size a
  packedbf16_S512x1024_S512x64_0_896 : (Rect.unit (s := S512x1024) ![0, 896] S512x64.size inb_S512x1024_S512x64_0_896).PackedRows (EltTy.packing .bf16)
  inb_S1x512x1024_S1x512x64_0_0_960 : ∀ a, (![0, 0, 960] : Fin 3 → Nat) a + S1x512x64.size a ≤ S1x512x1024.size a
  inb_S1x2048x1024_S1x2048x64_0_0_960 : ∀ a, (![0, 0, 960] : Fin 3 → Nat) a + S1x2048x64.size a ≤ S1x2048x1024.size a
  inb_S512x1024_S512x64_0_960 : ∀ a, (![0, 960] : Fin 2 → Nat) a + S512x64.size a ≤ S512x1024.size a
  packedbf16_S512x1024_S512x64_0_960 : (Rect.unit (s := S512x1024) ![0, 960] S512x64.size inb_S512x1024_S512x64_0_960).PackedRows (EltTy.packing .bf16)
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S2x2048x1024.size a
  hwx3_0 : ∀ i : grid3.Coords, EltTy.bits .bf16 = 32 ∨ (Rect.block (s := S2x2048x1024) S1x512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S2x2048x1024.size a
  hwx3_1 : ∀ i : grid3.Coords, EltTy.bits .bf16 = 32 ∨ (Rect.block (s := S2x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S2x2048x1024.size a
  hwx3_2 : ∀ i : grid3.Coords, EltTy.bits .bf16 = 32 ∨ (Rect.block (s := S2x2048x1024) S1x2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x512x1024.size a ≤ S2x2048x1024.size a
  hwx3_5 : ∀ i : grid3.Coords, EltTy.bits .f32 = 32 ∨ (Rect.block (s := S2x2048x1024) S1x512x1024.size (cc3_transform_5 i) (hinb3_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x2048x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x64, .f32⟩
  | .hbm, ⟨48, _⟩ => ⟨S2x2048x16x64, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its result named.  Every weakly fair execution of the four launches and the
  host operations between them terminates without a fault; afterwards the result buffer holds what the fourth
  launch's write-backs leave of it (the contents the segment boundaries' fold ends with), and the eleven argument
  arrays are as launched.  The statement is the frame's with one more buffer read off the final contents.
-/
import proofs.«170793_j1580547968007_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the launch over the eight segments, the last thread state read against the final state; the result
    buffer is one of the unscoped buffers held at the final contents, each argument is read back to the launch. -/
theorem run_result : θ_run defs (onTc (τ := τ) (main (F := F))) ⟨m, fun _ => 0, ρ⟩ (fun r => ∀ c : Dev nD,
      r.2.mem ((c.tc : Thread nD τ).loc main_v17) = W8 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v17 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Result

end
-- ==== Proof.Boundaries.lean ====
/-
  What each launch finds in its input arrays.  Between the launches the host only re-lays arrays: it casts the four
  weight matrices to the narrower float format (the identity on the extended reals), flattens a batch of 2 × 2048
  rows to 4096 rows and back, and turns a bias vector into a one-row matrix.  No host operation and no launch
  writes an argument, and a buffer a host operation wrote is kept by every later stretch and launch that does not
  write it.  So the inputs of each launch are such re-layings of the arguments, or of an earlier launch's result.
-/
import proofs.«170793_j1580547968007_2_alg».proof.Proof.Gen.KernelIdeal.Frame
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg)

/-! ## Arguments read at the boundaries where a host stretch re-lays them -/

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg6) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg8) := rfl

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg10) := rfl

/-! ## The first launch's inputs -/

theorem rows0 (c : Dev nD) : (V1 m ρ c main_v4 : S4096x1024.Idx → Elt F .f32)
    = shapeCast S4096x1024 (m ((c : Thread nD τ).loc main_arg0)) shapeCasts_S2x2048x1024_S4096x1024 := by
  show StableHlo.after hostOps0 (W0 m ρ c) (Proc.devRef .tc main_v4) = _
  after_results; rfl

theorem weight0 (c : Dev nD) : (V1 m ρ c main_v0 : S1024x1024.Idx → Elt F .bf16)
    = truncf .bf16 (m ((c : Thread nD τ).loc main_arg3)) bitsLt_bf16_f32 := by
  show StableHlo.after hostOps0 (W0 m ρ c) (Proc.devRef .tc main_v0) = _
  after_results

theorem bias0 (c : Dev nD) : (V1 m ρ c main_v5 : S1x1024.Idx → Elt F .f32)
    = shapeCast S1x1024 (m ((c : Thread nD τ).loc main_arg4)) shapeCasts_S1024_S1x1024 := by
  show StableHlo.after hostOps0 (W0 m ρ c) (Proc.devRef .tc main_v5) = _
  after_results; rfl

/-! ## The second launch's inputs -/

theorem rows1 (c : Dev nD) : (V3 m ρ c main_v8 : S4096x1024.Idx → Elt F .f32)
    = shapeCast S4096x1024 (m ((c : Thread nD τ).loc main_arg1)) shapeCasts_S2x2048x1024_S4096x1024 := by
  rw [← W2_arg1 m ρ c]
  show StableHlo.after hostOps1 (W2 m ρ c) (Proc.devRef .tc main_v8) = _
  after_results; rfl

theorem weight1_at (c : Dev nD) : W3 m ρ c (Proc.devRef .tc main_v1) = W1 m ρ c (Proc.devRef .tc main_v1) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_v1) := W2_of_ne m ρ c main_v1 (by decide)

theorem weight1 (c : Dev nD) : (V3 m ρ c main_v1 : S1024x1024.Idx → Elt F .bf16)
    = truncf .bf16 (m ((c : Thread nD τ).loc main_arg5)) bitsLt_bf16_f32 := by
  show W3 m ρ c (Proc.devRef .tc main_v1) = _
  rw [weight1_at]
  show StableHlo.after hostOps0 (W0 m ρ c) (Proc.devRef .tc main_v1) = _
  after_results

theorem bias1 (c : Dev nD) : (V3 m ρ c main_v9 : S1x1024.Idx → Elt F .f32)
    = shapeCast S1x1024 (m ((c : Thread nD τ).loc main_arg6)) shapeCasts_S1024_S1x1024 := by
  rw [← W2_arg6 m ρ c]
  show StableHlo.after hostOps1 (W2 m ρ c) (Proc.devRef .tc main_v9) = _
  after_results; rfl

/-! ## The third launch's inputs -/

theorem rows2 (c : Dev nD) : (V5 m ρ c main_v12 : S4096x1024.Idx → Elt F .f32)
    = shapeCast S4096x1024 (m ((c : Thread nD τ).loc main_arg2)) shapeCasts_S2x2048x1024_S4096x1024 := by
  rw [← W4_arg2 m ρ c]
  show StableHlo.after hostOps2 (W4 m ρ c) (Proc.devRef .tc main_v12) = _
  after_results; rfl

theorem weight2_at (c : Dev nD) : W5 m ρ c (Proc.devRef .tc main_v2) = W1 m ρ c (Proc.devRef .tc main_v2) :=
  calc W5 m ρ c (Proc.devRef .tc main_v2)
    _ = W4 m ρ c (Proc.devRef .tc main_v2) := StableHlo.after_of_forall_not_mem (b := Proc.devRef .tc main_v2) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_v2) := W2_of_ne m ρ c main_v2 (by decide)

theorem weight2 (c : Dev nD) : (V5 m ρ c main_v2 : S1024x1024.Idx → Elt F .bf16)
    = truncf .bf16 (m ((c : Thread nD τ).loc main_arg7)) bitsLt_bf16_f32 := by
  show W5 m ρ c (Proc.devRef .tc main_v2) = _
  rw [weight2_at]
  show StableHlo.after hostOps0 (W0 m ρ c) (Proc.devRef .tc main_v2) = _
  after_results

theorem bias2 (c : Dev nD) : (V5 m ρ c main_v13 : S1x1024.Idx → Elt F .f32)
    = shapeCast S1x1024 (m ((c : Thread nD τ).loc main_arg8)) shapeCasts_S1024_S1x1024 := by
  rw [← W4_arg8 m ρ c]
  show StableHlo.after hostOps2 (W4 m ρ c) (Proc.devRef .tc main_v13) = _
  after_results; rfl

/-! ## The fourth launch's inputs: the three projections re-laid as batches, the output weight and bias -/

theorem queries_at (c : Dev nD) : W7 m ρ c (Proc.devRef .tc main_v7) = W3 m ρ c (Proc.devRef .tc main_v7) :=
  calc W7 m ρ c (Proc.devRef .tc main_v7)
    _ = W6 m ρ c (Proc.devRef .tc main_v7) := StableHlo.after_of_forall_not_mem (b := Proc.devRef .tc main_v7) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_v7) := W4_of_ne m ρ c main_v7 (by decide)

theorem queries (c : Dev nD) : (V7 m ρ c main_v7 : S2x2048x1024.Idx → Elt F .bf16)
    = shapeCast S2x2048x1024 ((dat0 (V1 m ρ) c).arrAt 3 cfg0.N) shapeCasts_S4096x1024_S2x2048x1024 := by
  show W7 m ρ c (Proc.devRef .tc main_v7) = _
  rw [queries_at, ← W2_arr m ρ c 3]
  show StableHlo.after hostOps1 (W2 m ρ c) (Proc.devRef .tc main_v7) = _
  after_results; rfl

theorem keys_at (c : Dev nD) : W7 m ρ c (Proc.devRef .tc main_v11) = W5 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_v11) := W6_of_ne m ρ c main_v11 (by decide)

theorem keys (c : Dev nD) : (V7 m ρ c main_v11 : S2x2048x1024.Idx → Elt F .bf16)
    = shapeCast S2x2048x1024 ((dat1 (V3 m ρ) c).arrAt 3 cfg1.N) shapeCasts_S4096x1024_S2x2048x1024 := by
  show W7 m ρ c (Proc.devRef .tc main_v11) = _
  rw [keys_at, ← W4_arr m ρ c 3]
  show StableHlo.after hostOps2 (W4 m ρ c) (Proc.devRef .tc main_v11) = _
  after_results; rfl

theorem values (c : Dev nD) : (V7 m ρ c main_v15 : S2x2048x1024.Idx → Elt F .bf16)
    = shapeCast S2x2048x1024 ((dat2 (V5 m ρ) c).arrAt 3 cfg2.N) shapeCasts_S4096x1024_S2x2048x1024 := by
  rw [← W6_arr m ρ c 3]
  show StableHlo.after hostOps3 (W6 m ρ c) (Proc.devRef .tc main_v15) = _
  after_results; rfl

theorem weight3_at (c : Dev nD) : W7 m ρ c (Proc.devRef .tc main_v3) = W1 m ρ c (Proc.devRef .tc main_v3) :=
  calc W7 m ρ c (Proc.devRef .tc main_v3)
    _ = W6 m ρ c (Proc.devRef .tc main_v3) := StableHlo.after_of_forall_not_mem (b := Proc.devRef .tc main_v3) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_v3) := W2_of_ne m ρ c main_v3 (by decide)

theorem weight3 (c : Dev nD) : (V7 m ρ c main_v3 : S1024x1024.Idx → Elt F .bf16)
    = truncf .bf16 (m ((c : Thread nD τ).loc main_arg9)) bitsLt_bf16_f32 := by
  show W7 m ρ c (Proc.devRef .tc main_v3) = _
  rw [weight3_at]
  show StableHlo.after hostOps0 (W0 m ρ c) (Proc.devRef .tc main_v3) = _
  after_results

theorem bias3 (c : Dev nD) : (V7 m ρ c main_v16 : S1x1024.Idx → Elt F .f32)
    = shapeCast S1x1024 (m ((c : Thread nD τ).loc main_arg10)) shapeCasts_S1024_S1x1024 := by
  rw [← W6_arg10 m ρ c]
  show StableHlo.after hostOps3 (W6 m ρ c) (Proc.devRef .tc main_v16) = _
  after_results; rfl

end Cert.KernelIdeal.Boundary

end
-- ==== Proof.Attention.lean ====
/-
  Multi-head attention on the extended reals, entry by entry.

  A batch holds 2 sequences of 2048 rows of width 1024.  Three affine maps (row times a 1024 × 1024 matrix, plus a
  bias row) give queries, keys and values.  The width 1024 is 16 heads of 64 lanes: lane d of head h is column
  64·h + d.  For one query row and one head, the score against key row j is the dot product over the head's 64
  lanes times a scale; the scores of a row are shifted by their maximum, exponentiated, and divided by the sum of
  the exponentials; the head's output at lane d is the sum over j of that weight times value row j at the lane.
  The 16 head outputs side by side are a row of width 1024 again, which a fourth affine map sends to the result.

  The one-row, one-head part (rowScore … rowMix) is stated for any number m of key rows and any head width w, over
  plain functions of coordinates, so that a block of rows of a larger array and a slice of lanes can both be read
  through it.  The scale and the starting value of the maximum are parameters: no float word is evaluated here.
-/
import Idealize.ShloMosaic.PureOps.Ideal
import Idealize.ShloMosaic.Lib.ValueIdx

noncomputable section

open scoped BigOperators

namespace Cert.Attention

open Idealize.ShloMosaic Idealize.ShloMosaic.ValueIdx

/-! ## One query row against m key rows, one head of width w -/

section Row

variable {w m : ℕ} (scale bot : EReal)

/-- The score of the query row against key row j: the dot product over the head's lanes, scaled. -/
def rowScore (qrow : Fin w → EReal) (Kh : Fin m → Fin w → EReal) (j : Fin m) : EReal :=
  (∑ d : Fin w, qrow d * Kh j d) * scale

/-- The largest score of the row, as the fold of max from the starting value. -/
def rowPeak (qrow : Fin w → EReal) (Kh : Fin m → Fin w → EReal) : EReal :=
  (Finset.univ : Finset (Fin m)).fold max bot (fun j => rowScore scale qrow Kh j)

/-- The exponential of a score shifted by the row's largest score. -/
def rowWeight (qrow : Fin w → EReal) (Kh : Fin m → Fin w → EReal) (j : Fin m) : EReal :=
  Ideal.exp (rowScore scale qrow Kh j - rowPeak scale bot qrow Kh)

/-- The sum of the row's weights. -/
def rowMass (qrow : Fin w → EReal) (Kh : Fin m → Fin w → EReal) : EReal :=
  ∑ j : Fin m, rowWeight scale bot qrow Kh j

/-- The head's output at lane d: the normalised weights against the value rows. -/
def rowMix (qrow : Fin w → EReal) (Kh Vh : Fin m → Fin w → EReal) (d : Fin w) : EReal :=
  ∑ j : Fin m, Ideal.div (rowWeight scale bot qrow Kh j) (rowMass scale bot qrow Kh) * Vh j d

end Row

/-! ## The whole layer -/

/-- A batch of sequences of model-width rows; a square weight matrix; a bias row. -/
abbrev Seqs := Fin 2 → Fin 2048 → Fin 1024 → EReal
abbrev Mat := Fin 1024 → Fin 1024 → EReal
abbrev Row := Fin 1024 → EReal

/-- A row times a matrix, plus a bias row. -/
def affineRow (x : Fin 1024 → EReal) (W : Mat) (b : Row) (e : Fin 1024) : EReal :=
  (∑ d : Fin 1024, x d * W d e) + b e

/-- The affine map applied to every row of every sequence. -/
def proj (x : Seqs) (W : Mat) (b : Row) : Seqs := fun n s e => affineRow (x n s) W b e

/-- Lane d of head h is column 64·h + d. -/
def lane (h : Fin 16) (d : Fin 64) : Fin 1024 := ⟨64 * h.val + d.val, by omega⟩

/-- The head a column belongs to, and its lane inside the head. -/
def headOf (c : Fin 1024) : Fin 16 := ⟨c.val / 64, by omega⟩
def within (c : Fin 1024) : Fin 64 := ⟨c.val % 64, Nat.mod_lt _ (by omega)⟩

theorem headOf_lane (h : Fin 16) (d : Fin 64) : headOf (lane h d) = h := by
  apply Fin.ext; show (64 * h.val + d.val) / 64 = h.val; omega

theorem within_lane (h : Fin 16) (d : Fin 64) : within (lane h d) = d := by
  apply Fin.ext; show (64 * h.val + d.val) % 64 = d.val; omega

theorem lane_headOf_within (c : Fin 1024) : lane (headOf c) (within c) = c := by
  apply Fin.ext; show 64 * (c.val / 64) + c.val % 64 = c.val; omega

variable (scale bot : EReal)

/-- Head h of sequence n at query row s, lane d. -/
def mix (Q K V : Seqs) (n : Fin 2) (h : Fin 16) (s : Fin 2048) (d : Fin 64) : EReal :=
  rowMix scale bot (fun d' => Q n s (lane h d')) (fun j d' => K n j (lane h d')) (fun j d' => V n j (lane h d')) d

/-- The 16 heads side by side. -/
def merged (Q K V : Seqs) : Seqs := fun n s c => mix scale bot Q K V n (headOf c) s (within c)

theorem merged_lane (Q K V : Seqs) (n : Fin 2) (s : Fin 2048) (h : Fin 16) (d : Fin 64) :
    merged scale bot Q K V n s (lane h d) = mix scale bot Q K V n h s d := by
  unfold merged; rw [headOf_lane, within_lane]

/-- The layer: project, attend head by head, merge, project. -/
def attend (q k v : Seqs) (Wq Wk Wv Wo : Mat) (bq bk bv bo : Row) : Seqs :=
  proj (merged scale bot (proj q Wq bq) (proj k Wk bk) (proj v Wv bv)) Wo bo

/-! ## The layer over arrays -/

def seqs (x : FVec Ideal ⟨3, ![2, 2048, 1024]⟩ .f32) : Seqs := fun n s d => x (ix3 n s d)
def mat (W : FVec Ideal ⟨2, ![1024, 1024]⟩ .f32) : Mat := fun d e => W (ix2 d e)
def row (b : FVec Ideal ⟨1, ![1024]⟩ .f32) : Row := fun e => b (ix1 e)

/-- The result array as one function of the eleven argument arrays: scale 1/8 (the word 0x3E000000), the maximum
    started from the word 0xFF800000. -/
def layer (q k v : FVec Ideal ⟨3, ![2, 2048, 1024]⟩ .f32) (Wq : FVec Ideal ⟨2, ![1024, 1024]⟩ .f32)
    (bq : FVec Ideal ⟨1, ![1024]⟩ .f32) (Wk : FVec Ideal ⟨2, ![1024, 1024]⟩ .f32) (bk : FVec Ideal ⟨1, ![1024]⟩ .f32)
    (Wv : FVec Ideal ⟨2, ![1024, 1024]⟩ .f32) (bv : FVec Ideal ⟨1, ![1024]⟩ .f32)
    (Wo : FVec Ideal ⟨2, ![1024, 1024]⟩ .f32) (bo : FVec Ideal ⟨1, ![1024]⟩ .f32) :
    FVec Ideal ⟨3, ![2, 2048, 1024]⟩ .f32 :=
  fun i => attend (Ideal.ofBits .f32 0x3E000000#32) (Ideal.ofBits .f32 0xFF800000#32) (seqs q) (seqs k) (seqs v)
    (mat Wq) (mat Wk) (mat Wv) (mat Wo) (row bq) (row bk) (row bv) (row bo) (i 0) (i 1) (i 2)

theorem layer_apply (q k v : FVec Ideal ⟨3, ![2, 2048, 1024]⟩ .f32) (Wq : FVec Ideal ⟨2, ![1024, 1024]⟩ .f32)
    (bq : FVec Ideal ⟨1, ![1024]⟩ .f32) (Wk : FVec Ideal ⟨2, ![1024, 1024]⟩ .f32) (bk : FVec Ideal ⟨1, ![1024]⟩ .f32)
    (Wv : FVec Ideal ⟨2, ![1024, 1024]⟩ .f32) (bv : FVec Ideal ⟨1, ![1024]⟩ .f32)
    (Wo : FVec Ideal ⟨2, ![1024, 1024]⟩ .f32) (bo : FVec Ideal ⟨1, ![1024]⟩ .f32) (n : Fin 2) (s : Fin 2048) (e : Fin 1024) :
    layer q k v Wq bq Wk bk Wv bv Wo bo (ix3 n s e)
      = attend (Ideal.ofBits .f32 0x3E000000#32) (Ideal.ofBits .f32 0xFF800000#32) (seqs q) (seqs k) (seqs v)
          (mat Wq) (mat Wk) (mat Wv) (mat Wo) (row bq) (row bk) (row bv) (row bo) n s e := rfl

end Cert.Attention

end
-- ==== Proof.LinearBlocks.lean ====
/-
  The three projection launches, from blocks to arrays.  Each launch walks four grid points; point t stages rows
  1024·t … 1024·t + 1023 of a 4096 × 1024 array, the whole 1024 × 1024 weight and the 1 × 1024 bias row, and
  writes back the same rows of the result.  Given that the body's payload at entry (r, e) is the affine image
  of row r (the sum over d of x (r, d) · w (d, e), plus the bias at e), every row of the result array is the
  affine image of the same row of the input array: the row blocks tile the array, so nothing of the entry
  contents is left.  The contents the launch finds in its three input arrays are a parameter.
-/
import proofs.«170793_j1580547968007_2_alg».proof.Proof.Gen.KernelIdeal.Frame
import proofs.«170793_j1580547968007_2_alg».proof.Proof.Attention
import Idealize.ShloMosaic.Lib.Pipeline.Value
import Idealize.ShloMosaic.Lib.ValueIdx

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem

theorem hz2 : (![0, 0] : Fin 2 → Nat) = fun _ => 0 := funext fun a => by fin_cases a <;> rfl

/-- Every row of a 4096 × 1024 array sent through the affine map of a weight array and a bias row. -/
def rowsAffine (x : S4096x1024.Idx → EReal) (w : S1024x1024.Idx → EReal) (b : S1x1024.Idx → EReal) :
    S4096x1024.Idx → EReal :=
  fun i => Attention.affineRow (fun d => x (ix2 (i 0) d)) (fun d e => w (ix2 d e)) (fun e => b (ix2 (0 : Fin 1) e)) (i 1)

/-- A block payload that is the affine image of each of its 1024 rows. -/
def LinearAt (pay : Vec Ideal S1024x1024 .f32 → Vec Ideal S1024x1024 .bf16 → Vec Ideal S1x1024 .f32 → FVec Ideal S1024x1024 .bf16) : Prop :=
  ∀ (v0 : Vec Ideal S1024x1024 .f32) (v3 : Vec Ideal S1024x1024 .bf16) (v6 : Vec Ideal S1x1024 .f32) (r e : Fin 1024),
    pay v0 v3 v6 (ix2 r e)
      = Attention.affineRow (fun d => v0 (ix2 r d)) (fun d e' => v3 (ix2 d e')) (fun e' => v6 (ix2 (0 : Fin 1) e')) e

variable (V : (c : Dev nD) → (b : Ref sig .tc) → Buf (Elt Ideal) ((c : Thread nD τ).loc b))

/-! ## Launch 0: rows of main_v4 times main_v0, plus main_v5 -/

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t (rows 1024·t … 1024·t + 1023) of the affine image of the rows. -/
theorem flushed0_eq (hlin : LinearAt (k0_pay1 (F := Ideal))) (c : Dev nD) (t : Fin cfg0.N) :
    (dat0 V c).flushed 3 t = ((cfg0.win 3).blk t).view.read (Elt Ideal)
      (rowsAffine (V c main_v4) (V c main_v0) (V c main_v5)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1x1024) hz2]
  obtain ⟨f0, f1, f2, f3, f4, f5, f6, f7⟩ := idx_facts0 t
  funext j
  show k0_pay1 (iblk0 V c 0 t) (iblk0 V c 1 t) (iblk0 V c 2 t) j
    = rowsAffine (V c main_v4) (V c main_v0) (V c main_v5) (((cfg0.win 3).blk t).view.emb j)
  rw [eq_ix2 j]
  refine (hlin (iblk0 V c 0 t) (iblk0 V c 1 t) (iblk0 V c 2 t) (j 0) (j 1)).trans ?_
  have e0 : ∀ d : Fin 1024, ((cfg0.win 0).blk t).view.emb (ix2 (j 0) d)
      = ix2 ((((cfg0.win 3).blk t).view.emb (ix2 (j 0) (j 1))) 0) d := fun d => by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 1024 + 1 * d.val = d.val; omega
  have e1 : ∀ d e : Fin 1024, ((cfg0.win 1).blk t).view.emb (ix2 d e) = ix2 d e := fun d e => by
    funext a; apply Fin.ext
    match a with
    | ⟨0, _⟩ => show win0_1.index t (0 : Fin 2) * 1024 + 1 * d.val = d.val; omega
    | ⟨1, _⟩ => show win0_1.index t (1 : Fin 2) * 1024 + 1 * e.val = e.val; omega
  have e2 : ∀ e : Fin 1024, ((cfg0.win 2).blk t).view.emb (ix2 (0 : Fin 1) e) = ix2 (0 : Fin 1) e := fun e => by
    funext a; apply Fin.ext
    match a with
    | ⟨0, _⟩ => show win0_2.index t (0 : Fin 2) * 1 + 1 * 0 = 0; omega
    | ⟨1, _⟩ => show win0_2.index t (1 : Fin 2) * 1024 + 1 * e.val = e.val; omega
  have e3 : (((cfg0.win 3).blk t).view.emb (ix2 (j 0) (j 1))) 1 = j 1 := by
    apply Fin.ext
    show win0_3.index t (1 : Fin 2) * 1024 + 1 * (j 1).val = (j 1).val; omega
  show Attention.affineRow (fun d => V c main_v4 (((cfg0.win 0).blk t).view.emb (ix2 (j 0) d)))
      (fun d e => V c main_v0 (((cfg0.win 1).blk t).view.emb (ix2 d e)))
      (fun e => V c main_v5 (((cfg0.win 2).blk t).view.emb (ix2 (0 : Fin 1) e))) (j 1)
    = Attention.affineRow (fun d => V c main_v4 (ix2 ((((cfg0.win 3).blk t).view.emb (ix2 (j 0) (j 1))) 0) d))
      (fun d e => V c main_v0 (ix2 d e)) (fun e => V c main_v5 (ix2 (0 : Fin 1) e))
      ((((cfg0.win 3).blk t).view.emb (ix2 (j 0) (j 1))) 1)
  simp only [e0, e1, e2, e3]
  rfl

theorem mem_blk0 (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- The four row blocks fill the array: after the launch it is the affine image of the rows, everywhere. -/
theorem final0 (hlin : LinearAt (k0_pay1 (F := Ideal))) (c : Dev nD) :
    (dat0 V c).arrAt 3 cfg0.N = rowsAffine (V c main_v4) (V c main_v0) (V c main_v5) :=
  (dat0 V c).arrAt_eq_of_cover 3 _ (fun t _ => flushed0_eq V hlin c t) fun i => by
    have hN : cfg0.N = 4 := N_0
    have hi0 : (i 0).val < 4096 := (i 0).isLt
    have hi1 : (i 1).val < 1024 := (i 1).isLt
    refine ⟨⟨(i 0).val / 1024, by omega⟩, flush0_3 _, ?_⟩
    rw [mem_blk0]
    obtain ⟨f0, f1, f2, f3, f4, f5, f6, f7⟩ := idx_facts0 ⟨(i 0).val / 1024, by omega⟩
    intro a
    match a with
    | ⟨0, _⟩ =>
      show win0_3.index _ (0 : Fin 2) * 1024 ≤ (i 0).val ∧ (i 0).val < win0_3.index _ (0 : Fin 2) * 1024 + 1024
      rw [f6]; show (i 0).val / 1024 * 1024 ≤ (i 0).val ∧ (i 0).val < (i 0).val / 1024 * 1024 + 1024; omega
    | ⟨1, _⟩ =>
      show win0_3.index _ (1 : Fin 2) * 1024 ≤ (i 1).val ∧ (i 1).val < win0_3.index _ (1 : Fin 2) * 1024 + 1024
      rw [f7]; omega

/-! ## Launch 1: rows of main_v8 times main_v1, plus main_v9 -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t (rows 1024·t … 1024·t + 1023) of the affine image of the rows. -/
theorem flushed1_eq (hlin : LinearAt (k1_pay1 (F := Ideal))) (c : Dev nD) (t : Fin cfg1.N) :
    (dat1 V c).flushed 3 t = ((cfg1.win 3).blk t).view.read (Elt Ideal)
      (rowsAffine (V c main_v8) (V c main_v1) (V c main_v9)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1x1024) hz2]
  obtain ⟨f0, f1, f2, f3, f4, f5, f6, f7⟩ := idx_facts1 t
  funext j
  show k1_pay1 (iblk1 V c 0 t) (iblk1 V c 1 t) (iblk1 V c 2 t) j
    = rowsAffine (V c main_v8) (V c main_v1) (V c main_v9) (((cfg1.win 3).blk t).view.emb j)
  rw [eq_ix2 j]
  refine (hlin (iblk1 V c 0 t) (iblk1 V c 1 t) (iblk1 V c 2 t) (j 0) (j 1)).trans ?_
  have e0 : ∀ d : Fin 1024, ((cfg1.win 0).blk t).view.emb (ix2 (j 0) d)
      = ix2 ((((cfg1.win 3).blk t).view.emb (ix2 (j 0) (j 1))) 0) d := fun d => by
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 1024 + 1 * d.val = d.val; omega
  have e1 : ∀ d e : Fin 1024, ((cfg1.win 1).blk t).view.emb (ix2 d e) = ix2 d e := fun d e => by
    funext a; apply Fin.ext
    match a with
    | ⟨0, _⟩ => show win1_1.index t (0 : Fin 2) * 1024 + 1 * d.val = d.val; omega
    | ⟨1, _⟩ => show win1_1.index t (1 : Fin 2) * 1024 + 1 * e.val = e.val; omega
  have e2 : ∀ e : Fin 1024, ((cfg1.win 2).blk t).view.emb (ix2 (0 : Fin 1) e) = ix2 (0 : Fin 1) e := fun e => by
    funext a; apply Fin.ext
    match a with
    | ⟨0, _⟩ => show win1_2.index t (0 : Fin 2) * 1 + 1 * 0 = 0; omega
    | ⟨1, _⟩ => show win1_2.index t (1 : Fin 2) * 1024 + 1 * e.val = e.val; omega
  have e3 : (((cfg1.win 3).blk t).view.emb (ix2 (j 0) (j 1))) 1 = j 1 := by
    apply Fin.ext
    show win1_3.index t (1 : Fin 2) * 1024 + 1 * (j 1).val = (j 1).val; omega
  show Attention.affineRow (fun d => V c main_v8 (((cfg1.win 0).blk t).view.emb (ix2 (j 0) d)))
      (fun d e => V c main_v1 (((cfg1.win 1).blk t).view.emb (ix2 d e)))
      (fun e => V c main_v9 (((cfg1.win 2).blk t).view.emb (ix2 (0 : Fin 1) e))) (j 1)
    = Attention.affineRow (fun d => V c main_v8 (ix2 ((((cfg1.win 3).blk t).view.emb (ix2 (j 0) (j 1))) 0) d))
      (fun d e => V c main_v1 (ix2 d e)) (fun e => V c main_v9 (ix2 (0 : Fin 1) e))
      ((((cfg1.win 3).blk t).view.emb (ix2 (j 0) (j 1))) 1)
  simp only [e0, e1, e2, e3]
  rfl

theorem mem_blk1 (t : Fin cfg1.N) (i : S4096x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v10).slice (win1_3.rect t)).set ↔ _
  rw [View.set_slice_whole, Rect.mem_set_unit]
  exact Iff.rfl

/-- The four row blocks fill the array: after the launch it is the affine image of the rows, everywhere. -/
theorem final1 (hlin : LinearAt (k1_pay1 (F := Ideal))) (c : Dev nD) :
    (dat1 V c).arrAt 3 cfg1.N = rowsAffine (V c main_v8) (V c main_v1) (V c main_v9) :=
  (dat1 V c).arrAt_eq_of_cover 3 _ (fun t _ => flushed1_eq V hlin c t) fun i => by
    have hN : cfg1.N = 4 := N_1
    have hi0 : (i 0).val < 4096 := (i 0).isLt
    have hi1 : (i 1).val < 1024 := (i 1).isLt
    refine ⟨⟨(i 0).val / 1024, by omega⟩, flush1_3 _, ?_⟩
    rw [mem_blk1]
    obtain ⟨f0, f1, f2, f3, f4, f5, f6, f7⟩ := idx_facts1 ⟨(i 0).val / 1024, by omega⟩
    intro a
    match a with
    | ⟨0, _⟩ =>
      show win1_3.index _ (0 : Fin 2) * 1024 ≤ (i 0).val ∧ (i 0).val < win1_3.index _ (0 : Fin 2) * 1024 + 1024
      rw [f6]; show (i 0).val / 1024 * 1024 ≤ (i 0).val ∧ (i 0).val < (i 0).val / 1024 * 1024 + 1024; omega
    | ⟨1, _⟩ =>
      show win1_3.index _ (1 : Fin 2) * 1024 ≤ (i 1).val ∧ (i 1).val < win1_3.index _ (1 : Fin 2) * 1024 + 1024
      rw [f7]; omega

/-! ## Launch 2: rows of main_v12 times main_v2, plus main_v13 -/

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t (rows 1024·t … 1024·t + 1023) of the affine image of the rows. -/
theorem flushed2_eq (hlin : LinearAt (k2_pay1 (F := Ideal))) (c : Dev nD) (t : Fin cfg2.N) :
    (dat2 V c).flushed 3 t = ((cfg2.win 3).blk t).view.read (Elt Ideal)
      (rowsAffine (V c main_v12) (V c main_v2) (V c main_v13)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  obtain ⟨f0, f1, f2, f3, f4, f5, f6, f7⟩ := idx_facts2 t
  funext j
  show k2_pay1 (iblk2 V c 0 t) (iblk2 V c 1 t) (iblk2 V c 2 t) j
    = rowsAffine (V c main_v12) (V c main_v2) (V c main_v13) (((cfg2.win 3).blk t).view.emb j)
  rw [eq_ix2 j]
  refine (hlin (iblk2 V c 0 t) (iblk2 V c 1 t) (iblk2 V c 2 t) (j 0) (j 1)).trans ?_
  have e0 : ∀ d : Fin 1024, ((cfg2.win 0).blk t).view.emb (ix2 (j 0) d)
      = ix2 ((((cfg2.win 3).blk t).view.emb (ix2 (j 0) (j 1))) 0) d := fun d => by
    funext a; apply Fin.ext
    match a with
    | ⟨0, _⟩ => show win2_0.index t (0 : Fin 2) * 1024 + 1 * (j 0).val = win2_3.index t (0 : Fin 2) * 1024 + 1 * (j 0).val; omega
    | ⟨1, _⟩ => show win2_0.index t (1 : Fin 2) * 1024 + 1 * d.val = d.val; omega
  have e1 : ∀ d e : Fin 1024, ((cfg2.win 1).blk t).view.emb (ix2 d e) = ix2 d e := fun d e => by
    funext a; apply Fin.ext
    match a with
    | ⟨0, _⟩ => show win2_1.index t (0 : Fin 2) * 1024 + 1 * d.val = d.val; omega
    | ⟨1, _⟩ => show win2_1.index t (1 : Fin 2) * 1024 + 1 * e.val = e.val; omega
  have e2 : ∀ e : Fin 1024, ((cfg2.win 2).blk t).view.emb (ix2 (0 : Fin 1) e) = ix2 (0 : Fin 1) e := fun e => by
    funext a; apply Fin.ext
    match a with
    | ⟨0, _⟩ => show win2_2.index t (0 : Fin 2) * 1 + 1 * 0 = 0; omega
    | ⟨1, _⟩ => show win2_2.index t (1 : Fin 2) * 1024 + 1 * e.val = e.val; omega
  have e3 : (((cfg2.win 3).blk t).view.emb (ix2 (j 0) (j 1))) 1 = j 1 := by
    apply Fin.ext
    show win2_3.index t (1 : Fin 2) * 1024 + 1 * (j 1).val = (j 1).val; omega
  show Attention.affineRow (fun d => V c main_v12 (((cfg2.win 0).blk t).view.emb (ix2 (j 0) d)))
      (fun d e => V c main_v2 (((cfg2.win 1).blk t).view.emb (ix2 d e)))
      (fun e => V c main_v13 (((cfg2.win 2).blk t).view.emb (ix2 (0 : Fin 1) e))) (j 1)
    = Attention.affineRow (fun d => V c main_v12 (ix2 ((((cfg2.win 3).blk t).view.emb (ix2 (j 0) (j 1))) 0) d))
      (fun d e => V c main_v2 (ix2 d e)) (fun e => V c main_v13 (ix2 (0 : Fin 1) e))
      ((((cfg2.win 3).blk t).view.emb (ix2 (j 0) (j 1))) 1)
  simp only [e0, e1, e2, e3]
  rfl

theorem mem_blk2 (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v14).slice (win2_3.rect t)).set ↔ _
  rw [View.set_slice_whole, Rect.mem_set_unit]
  exact Iff.rfl

/-- The four row blocks fill the array: after the launch it is the affine image of the rows, everywhere. -/
theorem final2 (hlin : LinearAt (k2_pay1 (F := Ideal))) (c : Dev nD) :
    (dat2 V c).arrAt 3 cfg2.N = rowsAffine (V c main_v12) (V c main_v2) (V c main_v13) :=
  (dat2 V c).arrAt_eq_of_cover 3 _ (fun t _ => flushed2_eq V hlin c t) fun i => by
    have hN : cfg2.N = 4 := N_2
    have hi0 : (i 0).val < 4096 := (i 0).isLt
    have hi1 : (i 1).val < 1024 := (i 1).isLt
    refine ⟨⟨(i 0).val / 1024, by omega⟩, flush2_3 _, ?_⟩
    rw [mem_blk2]
    obtain ⟨f0, f1, f2, f3, f4, f5, f6, f7⟩ := idx_facts2 ⟨(i 0).val / 1024, by omega⟩
    intro a
    match a with
    | ⟨0, _⟩ =>
      show win2_3.index _ (0 : Fin 2) * 1024 ≤ (i 0).val ∧ (i 0).val < win2_3.index _ (0 : Fin 2) * 1024 + 1024
      rw [f6]; show (i 0).val / 1024 * 1024 ≤ (i 0).val ∧ (i 0).val < (i 0).val / 1024 * 1024 + 1024; omega
    | ⟨1, _⟩ =>
      show win2_3.index _ (1 : Fin 2) * 1024 ≤ (i 1).val ∧ (i 1).val < win2_3.index _ (1 : Fin 2) * 1024 + 1024
      rw [f7]; omega

end Cert.KernelIdeal.Linear

end
-- ==== Proof.HeadPieces.lean ====
/-
  One head of the attention kernel, however the body's text is cut.  The body treats its 16 heads one after the
  other; its arithmetic is named fragment by fragment, and a head's fragments compose to the same term for every
  head: the 64-lane query slice against the key slice, scaled, shifted by the row maximum, exponentiated,
  normalised by the row sum, and multiplied with the value slice.  Each lemma says that one head's composed
  fragments are that one function of the head's three slices.
-/
import proofs.«170793_j1580547968007_2_alg».proof.Proof.Gen.KernelIdeal.Skeleton

noncomputable section

namespace Cert.KernelIdeal.Heads

open Cert.KernelIdeal Cert.KernelIdeal.Gen Idealize.ShloMosaic

variable {F : FTy → Type} [FloatOps F]

/-- A head's output tile as a function of its query, key and value slices. -/
abbrev headTile (q : Vec F S1x512x64 .bf16) (k v : Vec F S1x2048x64 .bf16) : FVec F S512x64 .bf16 := k3_pay2 q k v

theorem head1 (q : Vec F S1x512x64 .bf16) (k v : Vec F S1x2048x64 .bf16) :
    k3_pay5 (k3_pay3 v) (k3_pay4 q k) = headTile q k v := rfl

theorem head2 (q : Vec F S1x512x64 .bf16) (k v : Vec F S1x2048x64 .bf16) :
    k3_pay7 (k3_pay6 q k v) = headTile q k v := rfl

theorem head3 (q : Vec F S1x512x64 .bf16) (k v : Vec F S1x2048x64 .bf16) :
    k3_pay8 q k v = headTile q k v := rfl

theorem head4 (q : Vec F S1x512x64 .bf16) (k v : Vec F S1x2048x64 .bf16) :
    k3_pay11 (k3_pay9 q) (k3_pay10 k) v = headTile q k v := rfl

theorem head5 (q : Vec F S1x512x64 .bf16) (k v : Vec F S1x2048x64 .bf16) :
    k3_pay14 (k3_pay12 v) (k3_pay13 q k) (constant S512x64 .f32 0#32) = headTile q k v := rfl

theorem head6 (q : Vec F S1x512x64 .bf16) (k v : Vec F S1x2048x64 .bf16) :
    k3_pay15 q k v = headTile q k v := rfl

theorem head7 (q : Vec F S1x512x64 .bf16) (k v : Vec F S1x2048x64 .bf16) :
    k3_pay18 (k3_pay16 q) (k3_pay17 k) v = headTile q k v := rfl

theorem head8 (q : Vec F S1x512x64 .bf16) (k v : Vec F S1x2048x64 .bf16) :
    k3_pay22 (k3_pay19 v) (k3_pay20 q k) (k3_pay21 q k) = headTile q k v := rfl

theorem head9 (q : Vec F S1x512x64 .bf16) (k v : Vec F S1x2048x64 .bf16) :
    k3_pay23 q k v = headTile q k v := rfl

theorem head10 (q : Vec F S1x512x64 .bf16) (k v : Vec F S1x2048x64 .bf16) :
    k3_pay25 (k3_pay24 q) k v = headTile q k v := rfl

theorem head11 (q : Vec F S1x512x64 .bf16) (k v : Vec F S1x2048x64 .bf16) :
    k3_pay28 (k3_pay26 v) (k3_pay27 q k) = headTile q k v := rfl

theorem head12 (q : Vec F S1x512x64 .bf16) (k v : Vec F S1x2048x64 .bf16) :
    k3_pay29 q k v = headTile q k v := rfl

theorem head13 (q : Vec F S1x512x64 .bf16) (k v : Vec F S1x2048x64 .bf16) :
    k3_pay31 (k3_pay30 q) k v = headTile q k v := rfl

theorem head14 (q : Vec F S1x512x64 .bf16) (k v : Vec F S1x2048x64 .bf16) :
    k3_pay35 (k3_pay32 v) (k3_pay33 q k) (k3_pay34 q k) = headTile q k v := rfl

theorem head15 (q : Vec F S1x512x64 .bf16) (k v : Vec F S1x2048x64 .bf16) :
    k3_pay36 q k v = headTile q k v := rfl

end Cert.KernelIdeal.Heads

end
-- ==== Proof.AttnTile.lean ====
/-
  The attention launch's block, from what its run found.  The body writes, for each of its 16 heads, a 512 × 64
  tile into columns 64·h … 64·h + 63 of a 512 × 1024 scratch array, each tile the head's function of the 64-lane
  slices of the staged query, key and value blocks; it then reads the scratch array back whole and stores the
  output projection of it.  So the scratch array read back is, at row p and column c, head ⌊c / 64⌋'s tile at
  (p, c mod 64) — the heads side by side — and the output block is the projection's payload of that array, the
  staged weight and the staged bias row.
-/
import proofs.«170793_j1580547968007_2_alg».proof.Proof.Gen.KernelIdeal.Frame
import proofs.«170793_j1580547968007_2_alg».proof.Proof.HeadPieces
import proofs.«170793_j1580547968007_2_alg».proof.Proof.Attention
import Idealize.ShloMosaic.Lib.Pipeline.Value
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.ValueIdx Idealize.SL.Sem Idealize.ShloMosaic.Tactic
open Cert.Attention (lane headOf within headOf_lane within_lane)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 64 lanes of head h of a block of rows of width 1024. -/
def lanes {A : ℕ} {α : Type} (x : (⟨3, ![1, A, 1024]⟩ : Shape).Idx → α) (h : Fin 16) : (⟨3, ![1, A, 64]⟩ : Shape).Idx → α :=
  fun j => x (ix3 (j 0) (j 1) (lane h (j 2)))

/-- A load of the 64 columns from 64·h reads head h's lanes. -/
theorem ld_lanes {A : ℕ} {e : EltTy} (x : (⟨3, ![1, A, 1024]⟩ : Shape).Idx → Elt F e) (h : Fin 16) (off : Fin 3 → ℕ)
    (hoff : off = ![0, 0, 64 * h.val])
    (inb : ∀ a, off a + (⟨3, ![1, A, 64]⟩ : Shape).size a ≤ (⟨3, ![1, A, 1024]⟩ : Shape).size a) :
    View.ld x (Rect.unit (s := ⟨3, ![1, A, 1024]⟩) off (⟨3, ![1, A, 64]⟩ : Shape).size inb) = lanes x h := by
  subst hoff
  funext j
  show x ((Rect.unit (s := ⟨3, ![1, A, 1024]⟩) _ _ inb).emb j) = x (ix3 (j 0) (j 1) (lane h (j 2)))
  refine congrArg x (funext fun a => Fin.ext ?_)
  match a with
  | ⟨0, _⟩ => show 0 + 1 * (j 0).val = (j 0).val; omega
  | ⟨1, _⟩ => show 0 + 1 * (j 1).val = (j 1).val; omega
  | ⟨2, _⟩ => show 64 * h.val + 1 * (j 2).val = 64 * h.val + (j 2).val; omega

theorem load_lanes {A : ℕ} {e : EltTy} (mr : Memref sig .tc .vmem ⟨3, ![1, A, 1024]⟩ e) (hm : mr.IsWhole)
    (x : (⟨3, ![1, A, 1024]⟩ : Shape).Idx → Elt F e) (h : Fin 16) (off : Fin 3 → ℕ) (hoff : off = ![0, 0, 64 * h.val])
    (inb : ∀ a, off a + (⟨3, ![1, A, 64]⟩ : Shape).size a ≤ (⟨3, ![1, A, 1024]⟩ : Shape).size a) :
    View.readAt (Elt F) mr.view (Rect.unit (s := ⟨3, ![1, A, 1024]⟩) off (⟨3, ![1, A, 64]⟩ : Shape).size inb).toLoadRect (hm.unread x)
      = lanes x h := by
  rw [View.readAt_eq_ld, hm.read_unread]; exact ld_lanes x h off hoff inb

/-- The 16 head tiles side by side. -/
def tile (x0 : Vec F S1x512x1024 .bf16) (x1 x2 : Vec F S1x2048x1024 .bf16) : S512x1024.Idx → Elt F .bf16 :=
  fun y => Heads.headTile (lanes x0 (headOf (y 1))) (lanes x1 (headOf (y 1))) (lanes x2 (headOf (y 1))) (ix2 (y 0) (within (y 1)))

theorem tile_lane (x0 : Vec F S1x512x1024 .bf16) (x1 x2 : Vec F S1x2048x1024 .bf16) (p : Fin 512) (h : Fin 16) (d : Fin 64) :
    tile x0 x1 x2 (ix2 p (lane h d)) = Heads.headTile (lanes x0 h) (lanes x1 h) (lanes x2 h) (ix2 p d) := by
  show Heads.headTile (lanes x0 (headOf (lane h d))) (lanes x1 (headOf (lane h d))) (lanes x2 (headOf (lane h d))) (ix2 p (within (lane h d))) = _
  rw [headOf_lane, within_lane]

/-- Head h's tile, stored through the rectangle of columns 64·h … 64·h + 63, agrees with the side-by-side array. -/
theorem piece_eq (x0 : Vec F S1x512x1024 .bf16) (x1 x2 : Vec F S1x2048x1024 .bf16) (h : Fin 16) (off : Fin 2 → ℕ)
    (hoff : off = ![0, 64 * h.val]) (inb : ∀ a, off a + S512x64.size a ≤ S512x1024.size a) (x : S512x64.Idx)
    (q : Vec F S1x512x64 .bf16) (k v : Vec F S1x2048x64 .bf16)
    (hq : q = lanes x0 h) (hk : k = lanes x1 h) (hv : v = lanes x2 h) :
    Heads.headTile q k v x = tile x0 x1 x2 ((Rect.unit (s := S512x1024) off S512x64.size inb).emb x) := by
  subst hoff hq hk hv
  have e : (Rect.unit (s := S512x1024) ![0, 64 * h.val] S512x64.size inb).emb x = ix2 (x 0) (lane h (x 1)) := by
    funext a; apply Fin.ext
    match a with
    | ⟨0, _⟩ => show 0 + 1 * (x 0).val = (x 0).val; omega
    | ⟨1, _⟩ => show 64 * h.val + 1 * (x 1).val = 64 * h.val + (x 1).val; omega
  rw [e]
  exact (congrArg (Heads.headTile (lanes x0 h) (lanes x1 h) (lanes x2 h)) (eq_ix2 x)).trans
    (tile_lane x0 x1 x2 (x 0) h (x 1)).symm

section Run

variable (c : Dev nD) (i : grid3.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x512x1024 .f32) (harg7 : arg7.IsWhole) (arg8 : Memref sig .tc .vmem S512x1024 .bf16) (harg8 : arg8.IsWhole)
    (x0 : Vec F S1x512x1024 .bf16) (x1 : Vec F S1x2048x1024 .bf16) (x2 : Vec F S1x2048x1024 .bf16) (x3 : Vec F S1024x1024 .bf16) (x4 : Vec F S1x1024 .f32)

/-- Every entry of the scratch array lies in the rectangle of the head its column belongs to. -/
theorem scratch_cover (y : S512x1024.Idx) :
    ∃ pc ∈ kernelRun3_A.sl.HS0_16 c arg2 harg2 arg3 harg3 arg4 harg4 x0 x1 x2, y ∈ pc.1.set := by
  have h0 : (y 0).val < 512 := (y 0).isLt
  have h1 : (y 1).val < 1024 := (y 1).isLt
  unfold kernelRun3_A.sl.HS0_16
  by_cases c15 : 960 ≤ (y 1).val
  · refine ⟨_, List.mem_cons_self .., ?_⟩
    rw [Rect.mem_set_unit]
    intro a
    match a with
    | ⟨0, _⟩ => show 0 ≤ (y 0).val ∧ (y 0).val < 0 + 512; omega
    | ⟨1, _⟩ => show 960 ≤ (y 1).val ∧ (y 1).val < 960 + 64; omega
  by_cases c14 : 896 ≤ (y 1).val
  · refine ⟨_, List.mem_cons_of_mem _ (List.mem_cons_self ..), ?_⟩
    rw [Rect.mem_set_unit]
    intro a
    match a with
    | ⟨0, _⟩ => show 0 ≤ (y 0).val ∧ (y 0).val < 0 + 512; omega
    | ⟨1, _⟩ => show 896 ≤ (y 1).val ∧ (y 1).val < 896 + 64; omega
  by_cases c13 : 832 ≤ (y 1).val
  · refine ⟨_, List.mem_cons_of_mem _ (List.mem_cons_of_mem _ (List.mem_cons_self ..)), ?_⟩
    rw [Rect.mem_set_unit]
    intro a
    match a with
    | ⟨0, _⟩ => show 0 ≤ (y 0).val ∧ (y 0).val < 0 + 512; omega
    | ⟨1, _⟩ => show 832 ≤ (y 1).val ∧ (y 1).val < 832 + 64; omega
  by_cases c12 : 768 ≤ (y 1).val
  · refine ⟨_, List.mem_cons_of_mem _ (List.mem_cons_of_mem _ (List.mem_cons_of_mem _ (List.mem_cons_self ..))), ?_⟩
    rw [Rect.mem_set_unit]
    intro a
    match a with
    | ⟨0, _⟩ => show 0 ≤ (y 0).val ∧ (y 0).val < 0 + 512; omega
    | ⟨1, _⟩ => show 768 ≤ (y 1).val ∧ (y 1).val < 768 + 64; omega
  by_cases c11 : 704 ≤ (y 1).val
  · refine ⟨_, List.mem_cons_of_mem _ (List.mem_cons_of_mem _ (List.mem_cons_of_mem _ (List.mem_cons_of_mem _ (List.mem_cons_self ..)))), ?_⟩
    rw [Rect.mem_set_unit]
    intro a
    match a with
    | ⟨0, _⟩ => show 0 ≤ (y 0).val ∧ (y 0).val < 0 + 512; omega
    | ⟨1, _⟩ => show 704 ≤ (y 1).val ∧ (y 1).val < 704 + 64; omega
  by_cases c10 : 640 ≤ (y 1).val
  · refine ⟨_, List.mem_cons_of_mem _ (List.mem_cons_of_mem _ (List.mem_cons_of_mem _ (List.mem_cons_of_mem _ (List.mem_cons_of_mem _ (List.mem_cons_self ..))))), ?_⟩
    rw [Rect.mem_set_unit]
    intro a
    match a with
    | ⟨0, _⟩ => show 0 ≤ (y 0).val ∧ (y 0).val < 0 + 512; omega
    | ⟨1, _⟩ => show 640 ≤ (y 1).val ∧ (y 1).val < 640 + 64; omega
  by_cases c9 : 576 ≤ (y 1).val
  · refine ⟨_, List.mem_cons_of_mem _ (List.mem_cons_of_mem _ (List.mem_cons_of_mem _ (List.mem_cons_of_mem _ (List.mem_cons_of_mem _ (List.mem_cons_of_mem _ (List.mem_cons_self ..)))))), ?_⟩
    rw [Rect.mem_set_unit]
    intro a
    match a with
    | ⟨0, _⟩ => show 0 ≤ (y 0).val ∧ (y 0).val < 0 + 512; omega
    | ⟨1, _⟩ => show 576 ≤ (y 1).val ∧ (y 1).val < 576 + 64; omega
  by_cases c8 : 512 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), ?_⟩
    rw [Rect.mem_set_unit]
    intro a
    match a with
    | ⟨0, _⟩ => show 0 ≤ (y 0).val ∧ (y 0).val < 0 + 512; omega
    | ⟨1, _⟩ => show 512 ≤ (y 1).val ∧ (y 1).val < 512 + 64; omega
  by_cases c7 : 448 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), ?_⟩
    rw [Rect.mem_set_unit]
    intro a
    match a with
    | ⟨0, _⟩ => show 0 ≤ (y 0).val ∧ (y 0).val < 0 + 512; omega
    | ⟨1, _⟩ => show 448 ≤ (y 1).val ∧ (y 1).val < 448 + 64; omega
  by_cases c6 : 384 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), ?_⟩
    rw [Rect.mem_set_unit]
    intro a
    match a with
    | ⟨0, _⟩ => show 0 ≤ (y 0).val ∧ (y 0).val < 0 + 512; omega
    | ⟨1, _⟩ => show 384 ≤ (y 1).val ∧ (y 1).val < 384 + 64; omega
  by_cases c5 : 320 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), ?_⟩
    rw [Rect.mem_set_unit]
    intro a
    match a with
    | ⟨0, _⟩ => show 0 ≤ (y 0).val ∧ (y 0).val < 0 + 512; omega
    | ⟨1, _⟩ => show 320 ≤ (y 1).val ∧ (y 1).val < 320 + 64; omega
  by_cases c4 : 256 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), ?_⟩
    rw [Rect.mem_set_unit]
    intro a
    match a with
    | ⟨0, _⟩ => show 0 ≤ (y 0).val ∧ (y 0).val < 0 + 512; omega
    | ⟨1, _⟩ => show 256 ≤ (y 1).val ∧ (y 1).val < 256 + 64; omega
  by_cases c3 : 192 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), ?_⟩
    rw [Rect.mem_set_unit]
    intro a
    match a with
    | ⟨0, _⟩ => show 0 ≤ (y 0).val ∧ (y 0).val < 0 + 512; omega
    | ⟨1, _⟩ => show 192 ≤ (y 1).val ∧ (y 1).val < 192 + 64; omega
  by_cases c2 : 128 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), ?_⟩
    rw [Rect.mem_set_unit]
    intro a
    match a with
    | ⟨0, _⟩ => show 0 ≤ (y 0).val ∧ (y 0).val < 0 + 512; omega
    | ⟨1, _⟩ => show 128 ≤ (y 1).val ∧ (y 1).val < 128 + 64; omega
  by_cases c1 : 64 ≤ (y 1).val
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), ?_⟩
    rw [Rect.mem_set_unit]
    intro a
    match a with
    | ⟨0, _⟩ => show 0 ≤ (y 0).val ∧ (y 0).val < 0 + 512; omega
    | ⟨1, _⟩ => show 64 ≤ (y 1).val ∧ (y 1).val < 64 + 64; omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), ?_⟩
    rw [Rect.mem_set_unit]
    intro a
    match a with
    | ⟨0, _⟩ => show 0 ≤ (y 0).val ∧ (y 0).val < 0 + 512; omega
    | ⟨1, _⟩ => show 0 ≤ (y 1).val ∧ (y 1).val < 0 + 64; omega

/-- What the body reads back from the scratch array after its 16 stores: the heads side by side. -/
theorem scratch_eq :
    kernelRun3_A.sl.v384 c arg2 harg2 arg3 harg3 arg4 harg4 arg8 x0 x1 x2 = tile x0 x1 x2 := by
  unfold kernelRun3_A.sl.v384
  rw [View.readCov_eq_canon']
  funext y
  have hy : (Rect.unit (s := S512x1024) ![0, 0] ![512, 1024] inb_S512x1024_S512x1024_0_0).toLoadRect.idx y = y := by
    funext a; apply Fin.ext
    match a with
    | ⟨0, _⟩ => show 0 + 1 * (y 0).val = (y 0).val; omega
    | ⟨1, _⟩ => show 0 + 1 * (y 1).val = (y 1).val; omega
  show View.canon (kernelRun3_A.sl.HS0_16 c arg2 harg2 arg3 harg3 arg4 harg4 x0 x1 x2)
      ((Rect.unit (s := S512x1024) ![0, 0] ![512, 1024] inb_S512x1024_S512x1024_0_0).toLoadRect.idx y) = tile x0 x1 x2 y
  rw [hy]
  refine View.canon_apply_of_pieces (tile x0 x1 x2) _ ?_ y (scratch_cover c arg2 harg2 arg3 harg3 arg4 harg4 x0 x1 x2 y)
  intro pc hpc
  unfold kernelRun3_A.sl.HS0_16 at hpc
  simp only [List.mem_cons, List.mem_nil_iff, or_false] at hpc
  rcases hpc with rfl | rfl | rfl | rfl | rfl | rfl | rfl | rfl | rfl | rfl | rfl | rfl | rfl | rfl | rfl | rfl
  · intro x
    refine (congrFun (Heads.head15 _ _ _) x).trans ?_
    exact piece_eq x0 x1 x2 15 ![0, 960] rfl inb_S512x1024_S512x64_0_960 x _ _ _ (load_lanes arg2 harg2 x0 15 ![0, 0, 960] rfl inb_S1x512x1024_S1x512x64_0_0_960) (load_lanes arg3 harg3 x1 15 ![0, 0, 960] rfl inb_S1x2048x1024_S1x2048x64_0_0_960) (load_lanes arg4 harg4 x2 15 ![0, 0, 960] rfl inb_S1x2048x1024_S1x2048x64_0_0_960)
  · intro x
    simp only [kernelRun3_A.sl.r_17, kernelRun3_A.sl.r_18, kernelRun3_A.sl.r_19]
    refine (congrFun (Heads.head14 _ _ _) x).trans ?_
    exact piece_eq x0 x1 x2 14 ![0, 896] rfl inb_S512x1024_S512x64_0_896 x _ _ _ (load_lanes arg2 harg2 x0 14 ![0, 0, 896] rfl inb_S1x512x1024_S1x512x64_0_0_896) (load_lanes arg3 harg3 x1 14 ![0, 0, 896] rfl inb_S1x2048x1024_S1x2048x64_0_0_896) (load_lanes arg4 harg4 x2 14 ![0, 0, 896] rfl inb_S1x2048x1024_S1x2048x64_0_0_896)
  · intro x
    simp only [kernelRun3_A.sl.r_16]
    refine (congrFun (Heads.head13 _ _ _) x).trans ?_
    exact piece_eq x0 x1 x2 13 ![0, 832] rfl inb_S512x1024_S512x64_0_832 x _ _ _ (load_lanes arg2 harg2 x0 13 ![0, 0, 832] rfl inb_S1x512x1024_S1x512x64_0_0_832) (load_lanes arg3 harg3 x1 13 ![0, 0, 832] rfl inb_S1x2048x1024_S1x2048x64_0_0_832) (load_lanes arg4 harg4 x2 13 ![0, 0, 832] rfl inb_S1x2048x1024_S1x2048x64_0_0_832)
  · intro x
    refine (congrFun (Heads.head12 _ _ _) x).trans ?_
    exact piece_eq x0 x1 x2 12 ![0, 768] rfl inb_S512x1024_S512x64_0_768 x _ _ _ (load_lanes arg2 harg2 x0 12 ![0, 0, 768] rfl inb_S1x512x1024_S1x512x64_0_0_768) (load_lanes arg3 harg3 x1 12 ![0, 0, 768] rfl inb_S1x2048x1024_S1x2048x64_0_0_768) (load_lanes arg4 harg4 x2 12 ![0, 0, 768] rfl inb_S1x2048x1024_S1x2048x64_0_0_768)
  · intro x
    simp only [kernelRun3_A.sl.r_14, kernelRun3_A.sl.r_15]
    refine (congrFun (Heads.head11 _ _ _) x).trans ?_
    exact piece_eq x0 x1 x2 11 ![0, 704] rfl inb_S512x1024_S512x64_0_704 x _ _ _ (load_lanes arg2 harg2 x0 11 ![0, 0, 704] rfl inb_S1x512x1024_S1x512x64_0_0_704) (load_lanes arg3 harg3 x1 11 ![0, 0, 704] rfl inb_S1x2048x1024_S1x2048x64_0_0_704) (load_lanes arg4 harg4 x2 11 ![0, 0, 704] rfl inb_S1x2048x1024_S1x2048x64_0_0_704)
  · intro x
    simp only [kernelRun3_A.sl.r_13]
    refine (congrFun (Heads.head10 _ _ _) x).trans ?_
    exact piece_eq x0 x1 x2 10 ![0, 640] rfl inb_S512x1024_S512x64_0_640 x _ _ _ (load_lanes arg2 harg2 x0 10 ![0, 0, 640] rfl inb_S1x512x1024_S1x512x64_0_0_640) (load_lanes arg3 harg3 x1 10 ![0, 0, 640] rfl inb_S1x2048x1024_S1x2048x64_0_0_640) (load_lanes arg4 harg4 x2 10 ![0, 0, 640] rfl inb_S1x2048x1024_S1x2048x64_0_0_640)
  · intro x
    refine (congrFun (Heads.head9 _ _ _) x).trans ?_
    exact piece_eq x0 x1 x2 9 ![0, 576] rfl inb_S512x1024_S512x64_0_576 x _ _ _ (load_lanes arg2 harg2 x0 9 ![0, 0, 576] rfl inb_S1x512x1024_S1x512x64_0_0_576) (load_lanes arg3 harg3 x1 9 ![0, 0, 576] rfl inb_S1x2048x1024_S1x2048x64_0_0_576) (load_lanes arg4 harg4 x2 9 ![0, 0, 576] rfl inb_S1x2048x1024_S1x2048x64_0_0_576)
  · intro x
    simp only [kernelRun3_A.sl.r_10, kernelRun3_A.sl.r_11, kernelRun3_A.sl.r_12]
    refine (congrFun (Heads.head8 _ _ _) x).trans ?_
    exact piece_eq x0 x1 x2 8 ![0, 512] rfl inb_S512x1024_S512x64_0_512 x _ _ _ (load_lanes arg2 harg2 x0 8 ![0, 0, 512] rfl inb_S1x512x1024_S1x512x64_0_0_512) (load_lanes arg3 harg3 x1 8 ![0, 0, 512] rfl inb_S1x2048x1024_S1x2048x64_0_0_512) (load_lanes arg4 harg4 x2 8 ![0, 0, 512] rfl inb_S1x2048x1024_S1x2048x64_0_0_512)
  · intro x
    simp only [kernelRun3_A.sl.r_8, kernelRun3_A.sl.r_9]
    refine (congrFun (Heads.head7 _ _ _) x).trans ?_
    exact piece_eq x0 x1 x2 7 ![0, 448] rfl inb_S512x1024_S512x64_0_448 x _ _ _ (load_lanes arg2 harg2 x0 7 ![0, 0, 448] rfl inb_S1x512x1024_S1x512x64_0_0_448) (load_lanes arg3 harg3 x1 7 ![0, 0, 448] rfl inb_S1x2048x1024_S1x2048x64_0_0_448) (load_lanes arg4 harg4 x2 7 ![0, 0, 448] rfl inb_S1x2048x1024_S1x2048x64_0_0_448)
  · intro x
    refine (congrFun (Heads.head6 _ _ _) x).trans ?_
    exact piece_eq x0 x1 x2 6 ![0, 384] rfl inb_S512x1024_S512x64_0_384 x _ _ _ (load_lanes arg2 harg2 x0 6 ![0, 0, 384] rfl inb_S1x512x1024_S1x512x64_0_0_384) (load_lanes arg3 harg3 x1 6 ![0, 0, 384] rfl inb_S1x2048x1024_S1x2048x64_0_0_384) (load_lanes arg4 harg4 x2 6 ![0, 0, 384] rfl inb_S1x2048x1024_S1x2048x64_0_0_384)
  · intro x
    simp only [kernelRun3_A.sl.r_6, kernelRun3_A.sl.r_7, kernelRun3_A.sl.cst_86]
    refine (congrFun (Heads.head5 _ _ _) x).trans ?_
    exact piece_eq x0 x1 x2 5 ![0, 320] rfl inb_S512x1024_S512x64_0_320 x _ _ _ (load_lanes arg2 harg2 x0 5 ![0, 0, 320] rfl inb_S1x512x1024_S1x512x64_0_0_320) (load_lanes arg3 harg3 x1 5 ![0, 0, 320] rfl inb_S1x2048x1024_S1x2048x64_0_0_320) (load_lanes arg4 harg4 x2 5 ![0, 0, 320] rfl inb_S1x2048x1024_S1x2048x64_0_0_320)
  · intro x
    simp only [kernelRun3_A.sl.r_3, kernelRun3_A.sl.r_4, kernelRun3_A.sl.r_5]
    refine (congrFun (Heads.head4 _ _ _) x).trans ?_
    exact piece_eq x0 x1 x2 4 ![0, 256] rfl inb_S512x1024_S512x64_0_256 x _ _ _ (load_lanes arg2 harg2 x0 4 ![0, 0, 256] rfl inb_S1x512x1024_S1x512x64_0_0_256) (load_lanes arg3 harg3 x1 4 ![0, 0, 256] rfl inb_S1x2048x1024_S1x2048x64_0_0_256) (load_lanes arg4 harg4 x2 4 ![0, 0, 256] rfl inb_S1x2048x1024_S1x2048x64_0_0_256)
  · intro x
    refine (congrFun (Heads.head3 _ _ _) x).trans ?_
    exact piece_eq x0 x1 x2 3 ![0, 192] rfl inb_S512x1024_S512x64_0_192 x _ _ _ (load_lanes arg2 harg2 x0 3 ![0, 0, 192] rfl inb_S1x512x1024_S1x512x64_0_0_192) (load_lanes arg3 harg3 x1 3 ![0, 0, 192] rfl inb_S1x2048x1024_S1x2048x64_0_0_192) (load_lanes arg4 harg4 x2 3 ![0, 0, 192] rfl inb_S1x2048x1024_S1x2048x64_0_0_192)
  · intro x
    simp only [kernelRun3_A.sl.r_2]
    refine (congrFun (Heads.head2 _ _ _) x).trans ?_
    exact piece_eq x0 x1 x2 2 ![0, 128] rfl inb_S512x1024_S512x64_0_128 x _ _ _ (load_lanes arg2 harg2 x0 2 ![0, 0, 128] rfl inb_S1x512x1024_S1x512x64_0_0_128) (load_lanes arg3 harg3 x1 2 ![0, 0, 128] rfl inb_S1x2048x1024_S1x2048x64_0_0_128) (load_lanes arg4 harg4 x2 2 ![0, 0, 128] rfl inb_S1x2048x1024_S1x2048x64_0_0_128)
  · intro x
    simp only [kernelRun3_A.sl.r, kernelRun3_A.sl.r_1]
    refine (congrFun (Heads.head1 _ _ _) x).trans ?_
    exact piece_eq x0 x1 x2 1 ![0, 64] rfl inb_S512x1024_S512x64_0_64 x _ _ _ (load_lanes arg2 harg2 x0 1 ![0, 0, 64] rfl inb_S1x512x1024_S1x512x64_0_0_64) (load_lanes arg3 harg3 x1 1 ![0, 0, 64] rfl inb_S1x2048x1024_S1x2048x64_0_0_64) (load_lanes arg4 harg4 x2 1 ![0, 0, 64] rfl inb_S1x2048x1024_S1x2048x64_0_0_64)
  · intro x
    exact piece_eq x0 x1 x2 0 ![0, 0] rfl inb_S512x1024_S512x64_0_0 x _ _ _ (load_lanes arg2 harg2 x0 0 ![0, 0, 0] rfl inb_S1x512x1024_S1x512x64_0_0_0) (load_lanes arg3 harg3 x1 0 ![0, 0, 0] rfl inb_S1x2048x1024_S1x2048x64_0_0_0) (load_lanes arg4 harg4 x2 0 ![0, 0, 0] rfl inb_S1x2048x1024_S1x2048x64_0_0_0)

/-- The block the body leaves in the output's staging buffer: the output projection of the heads side by side. -/
theorem out_eq :
    out3_A_5 c i arg2 harg2 arg3 harg3 arg4 harg4 arg5 harg5 arg6 harg6 arg7 harg7 arg8 harg8 x0 x1 x2 x3 x4 = k3_pay1 (tile x0 x1 x2) x3 x4 := by
  unfold out3_A_5
  rw [View.read_writes_junk_eq_canon]
  unfold kernelRun3_A
  dsimp only
  rw [View.canon_unit_zero hz3, scratch_eq, View.readAt_eq_ld, harg5.read_unread, View.readAt_eq_ld, harg6.read_unread,
    View.ld_unit_zero (S := S1024x1024) hz2, View.ld_unit_zero (S := S1x1024) hz2]

end Run

/-- After the body at point t the output's staging buffer holds the projection of the point's heads. -/
theorem outsAt_eq (V : (c : Dev nD) → (b : Ref sig .tc) → Buf (Elt F) ((c : Thread nD τ).loc b)) (c : Dev nD) (t : Fin cfg3.N) :
    outsAt3 V c t = k3_pay1 (tile (iblk3 V c 0 t) (iblk3 V c 1 t) (iblk3 V c 2 t)) (iblk3 V c 3 t) (iblk3 V c 4 t) := by
  unfold outsAt3
  exact out_eq c _ _ _ _ _ _ _ _ _ _ _ _ _ _ _ _ _ _ _ _

end Cert.KernelIdeal.Tile

end
-- ==== Proof.AttnBlocks.lean ====
/-
  The attention launch, from blocks to the array.  The grid is 2 sequences × 4 blocks of 512 query rows.  Point
  (n, i) stages query rows 512·i … 512·i + 511 of sequence n, all 2048 key rows and all 2048 value rows of
  sequence n, the whole output weight and the bias row, and writes back the same 512 rows of sequence n of the
  result.  Given the two payload facts — a head's tile at (p, d) is the one-row attention of query row p against
  the staged key and value rows over the head's lanes, and the output payload at (p, e) is the affine image of
  row p of its first operand — row s of sequence n of the result is the affine image of the 16 heads' outputs
  side by side for that row: the eight blocks tile the array, so nothing of its entry contents is left.
-/
import proofs.«170793_j1580547968007_2_alg».proof.Proof.AttnTile

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Cert.Attention (lane headOf within lane_headOf_within)

/-- The scale 1/8 and the starting value of the row maximum, as the words the body uses. -/
abbrev eighth : EReal := Ideal.ofBits .f32 0x3E000000#32
abbrev floorWord : EReal := Ideal.ofBits .f32 0xFF800000#32

/-- A head's tile at (p, d) is the one-row attention of query row p over the head's lanes. -/
def HeadAt (pay : Vec Ideal S1x512x64 .bf16 → Vec Ideal S1x2048x64 .bf16 → Vec Ideal S1x2048x64 .bf16 → FVec Ideal S512x64 .bf16) : Prop :=
  ∀ (v0 : Vec Ideal S1x512x64 .bf16) (v2 v4 : Vec Ideal S1x2048x64 .bf16) (p : Fin 512) (d : Fin 64),
    pay v0 v2 v4 (ix2 p d)
      = Attention.rowMix eighth floorWord (fun d' => v0 (ix3 (0 : Fin 1) p d')) (fun j d' => v2 (ix3 (0 : Fin 1) j d'))
          (fun j d' => v4 (ix3 (0 : Fin 1) j d')) d

/-- The output payload at (p, e) is the affine image of row p of its first operand. -/
def OutAt (pay : Vec Ideal S512x1024 .bf16 → Vec Ideal S1024x1024 .bf16 → Vec Ideal S1x1024 .f32 → FVec Ideal S1x512x1024 .f32) : Prop :=
  ∀ (v384 : Vec Ideal S512x1024 .bf16) (v385 : Vec Ideal S1024x1024 .bf16) (v388 : Vec Ideal S1x1024 .f32) (p : Fin 512) (e : Fin 1024),
    pay v384 v385 v388 (ix3 (0 : Fin 1) p e)
      = Attention.affineRow (fun c => v384 (ix2 p c)) (fun c e' => v385 (ix2 c e')) (fun e' => v388 (ix2 (0 : Fin 1) e')) e

/-- The result array of the launch as one function of its five input arrays. -/
def attnOut (Qa Ka Va : S2x2048x1024.Idx → EReal) (Wo : S1024x1024.Idx → EReal) (bo : S1x1024.Idx → EReal) :
    S2x2048x1024.Idx → EReal :=
  fun i => Attention.affineRow
    (Attention.merged eighth floorWord (fun n s d => Qa (ix3 n s d)) (fun n s d => Ka (ix3 n s d)) (fun n s d => Va (ix3 n s d)) (i 0) (i 1))
    (fun c e => Wo (ix2 c e)) (fun e => bo (ix2 (0 : Fin 1) e)) (i 2)

/-- Row p of the heads side by side, column c: the one-row attention of head ⌊c / 64⌋ at lane c mod 64. -/
theorem tile_row (hhead : HeadAt (k3_pay2 (F := Ideal))) (x0 : Vec Ideal S1x512x1024 .bf16) (x1 x2 : Vec Ideal S1x2048x1024 .bf16)
    (p : Fin 512) (cc : Fin 1024) :
    Tile.tile x0 x1 x2 (ix2 p cc)
      = Attention.rowMix eighth floorWord (fun d' => x0 (ix3 (0 : Fin 1) p (lane (headOf cc) d')))
          (fun j d' => x1 (ix3 (0 : Fin 1) j (lane (headOf cc) d'))) (fun j d' => x2 (ix3 (0 : Fin 1) j (lane (headOf cc) d')))
          (within cc) := by
  have hc := Tile.tile_lane x0 x1 x2 p (headOf cc) (within cc)
  rw [lane_headOf_within] at hc
  rw [hc]
  exact hhead _ _ _ p (within cc)

variable (V : (c : Dev nD) → (b : Ref sig .tc) → Buf (Elt Ideal) ((c : Thread nD τ).loc b))

theorem idx_facts3 : ∀ t : Fin cfg3.N, win3_0.index t (0 : Fin 3) = win3_5.index t (0 : Fin 3)
    ∧ win3_0.index t (1 : Fin 3) = win3_5.index t (1 : Fin 3) ∧ win3_0.index t (2 : Fin 3) = 0
    ∧ win3_1.index t (0 : Fin 3) = win3_5.index t (0 : Fin 3) ∧ win3_1.index t (1 : Fin 3) = 0 ∧ win3_1.index t (2 : Fin 3) = 0
    ∧ win3_2.index t (0 : Fin 3) = win3_5.index t (0 : Fin 3) ∧ win3_2.index t (1 : Fin 3) = 0 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0
    ∧ win3_5.index t (2 : Fin 3) = 0 ∧ win3_5.index t (0 : Fin 3) ≤ 1 ∧ win3_5.index t (1 : Fin 3) ≤ 3 :=
  (by decide +kernel : ∀ t : Fin grid3.N, _)

theorem idx_onto3 : ∀ (q0 : Fin 2) (q1 : Fin 4), ∃ t : Fin cfg3.N, win3_5.index t = ![q0.val, q1.val, 0] :=
  (by decide +kernel : ∀ (q0 : Fin 2) (q1 : Fin 4), ∃ t : Fin grid3.N, win3_5.index t = ![q0.val, q1.val, 0])

/-- What point t writes back is its block of the launch's function of the input arrays. -/
theorem flushed3_eq (hhead : HeadAt (k3_pay2 (F := Ideal))) (hout : OutAt (k3_pay1 (F := Ideal))) (c : Dev nD) (t : Fin cfg3.N) :
    (dat3 V c).flushed 5 t = ((cfg3.win 5).blk t).view.read (Elt Ideal)
      (attnOut (V c main_v7) (V c main_v11) (V c main_v15) (V c main_v3) (V c main_v16)) := by
  show (cfg3.win 5).cut (grid3.coords t) ((dat3 V c).after 5 t) = _
  rw [after3_5, Tile.outsAt_eq]
  obtain ⟨f0, f1, f2, f3, f4, f5, f6, f7, f8, f9, f10, f11, f12, f13, f14, f15⟩ := idx_facts3 t
  funext j
  have hj0v : (j 0).val < 1 := (j 0).isLt
  have hj1v : (j 1).val < 512 := (j 1).isLt
  show k3_pay1 (Tile.tile (iblk3 V c 0 t) (iblk3 V c 1 t) (iblk3 V c 2 t)) (iblk3 V c 3 t) (iblk3 V c 4 t) j
    = attnOut (V c main_v7) (V c main_v11) (V c main_v15) (V c main_v3) (V c main_v16) (((cfg3.win 5).blk t).view.emb j)
  have hj0 : j = ix3 (0 : Fin 1) (j 1) (j 2) := by
    rw [eq_ix3 j]; exact congrArg (fun a => ix3 a (j 1) (j 2)) (Fin.ext (by show (j 0).val = 0; omega))
  rw [hj0]
  refine (hout (Tile.tile (iblk3 V c 0 t) (iblk3 V c 1 t) (iblk3 V c 2 t)) (iblk3 V c 3 t) (iblk3 V c 4 t) (j 1) (j 2)).trans ?_
  -- the block's coordinates in the array
  have eo : ((cfg3.win 5).blk t).view.emb (ix3 (0 : Fin 1) (j 1) (j 2))
      = ix3 (⟨win3_5.index t (0 : Fin 3), by omega⟩ : Fin 2) (⟨win3_5.index t (1 : Fin 3) * 512 + (j 1).val, by omega⟩ : Fin 2048) (j 2) := by
    funext a; apply Fin.ext
    match a with
    | ⟨0, _⟩ => show win3_5.index t (0 : Fin 3) * 1 + 1 * 0 = win3_5.index t (0 : Fin 3); omega
    | ⟨1, _⟩ => show win3_5.index t (1 : Fin 3) * 512 + 1 * (j 1).val = win3_5.index t (1 : Fin 3) * 512 + (j 1).val; omega
    | ⟨2, _⟩ => show win3_5.index t (2 : Fin 3) * 1024 + 1 * (j 2).val = (j 2).val; omega
  have eq : ∀ c' : Fin 1024, ((cfg3.win 0).blk t).view.emb (ix3 (0 : Fin 1) (j 1) c')
      = ix3 (⟨win3_5.index t (0 : Fin 3), by omega⟩ : Fin 2) (⟨win3_5.index t (1 : Fin 3) * 512 + (j 1).val, by omega⟩ : Fin 2048) c' := fun c' => by
    funext a; apply Fin.ext
    match a with
    | ⟨0, _⟩ => show win3_0.index t (0 : Fin 3) * 1 + 1 * 0 = win3_5.index t (0 : Fin 3); omega
    | ⟨1, _⟩ => show win3_0.index t (1 : Fin 3) * 512 + 1 * (j 1).val = win3_5.index t (1 : Fin 3) * 512 + (j 1).val; omega
    | ⟨2, _⟩ => show win3_0.index t (2 : Fin 3) * 1024 + 1 * c'.val = c'.val; omega
  have ek : ∀ (r : Fin 2048) (c' : Fin 1024), ((cfg3.win 1).blk t).view.emb (ix3 (0 : Fin 1) r c')
      = ix3 (⟨win3_5.index t (0 : Fin 3), by omega⟩ : Fin 2) r c' := fun r c' => by
    funext a; apply Fin.ext
    match a with
    | ⟨0, _⟩ => show win3_1.index t (0 : Fin 3) * 1 + 1 * 0 = win3_5.index t (0 : Fin 3); omega
    | ⟨1, _⟩ => show win3_1.index t (1 : Fin 3) * 2048 + 1 * r.val = r.val; omega
    | ⟨2, _⟩ => show win3_1.index t (2 : Fin 3) * 1024 + 1 * c'.val = c'.val; omega
  have ev : ∀ (r : Fin 2048) (c' : Fin 1024), ((cfg3.win 2).blk t).view.emb (ix3 (0 : Fin 1) r c')
      = ix3 (⟨win3_5.index t (0 : Fin 3), by omega⟩ : Fin 2) r c' := fun r c' => by
    funext a; apply Fin.ext
    match a with
    | ⟨0, _⟩ => show win3_2.index t (0 : Fin 3) * 1 + 1 * 0 = win3_5.index t (0 : Fin 3); omega
    | ⟨1, _⟩ => show win3_2.index t (1 : Fin 3) * 2048 + 1 * r.val = r.val; omega
    | ⟨2, _⟩ => show win3_2.index t (2 : Fin 3) * 1024 + 1 * c'.val = c'.val; omega
  have ew : ∀ d e : Fin 1024, ((cfg3.win 3).blk t).view.emb (ix2 d e) = ix2 d e := fun d e => by
    funext a; apply Fin.ext
    match a with
    | ⟨0, _⟩ => show win3_3.index t (0 : Fin 2) * 1024 + 1 * d.val = d.val; omega
    | ⟨1, _⟩ => show win3_3.index t (1 : Fin 2) * 1024 + 1 * e.val = e.val; omega
  have eb : ∀ e : Fin 1024, ((cfg3.win 4).blk t).view.emb (ix2 (0 : Fin 1) e) = ix2 (0 : Fin 1) e := fun e => by
    funext a; apply Fin.ext
    match a with
    | ⟨0, _⟩ => show win3_4.index t (0 : Fin 2) * 1 + 1 * 0 = 0; omega
    | ⟨1, _⟩ => show win3_4.index t (1 : Fin 2) * 1024 + 1 * e.val = e.val; omega
  refine Eq.trans ?_ (congrArg (attnOut (V c main_v7) (V c main_v11) (V c main_v15) (V c main_v3) (V c main_v16)) eo.symm)
  -- row (j 1) of the heads side by side is the merged heads of the array's row
  have hrow : (fun cc : Fin 1024 => Tile.tile (iblk3 V c 0 t) (iblk3 V c 1 t) (iblk3 V c 2 t) (ix2 (j 1) cc))
      = Attention.merged eighth floorWord (fun n s d => V c main_v7 (ix3 n s d)) (fun n s d => V c main_v11 (ix3 n s d))
          (fun n s d => V c main_v15 (ix3 n s d)) (⟨win3_5.index t (0 : Fin 3), by omega⟩ : Fin 2)
          (⟨win3_5.index t (1 : Fin 3) * 512 + (j 1).val, by omega⟩ : Fin 2048) := by
    funext cc
    refine (tile_row hhead (iblk3 V c 0 t) (iblk3 V c 1 t) (iblk3 V c 2 t) (j 1) cc).trans ?_
    show Attention.rowMix eighth floorWord
        (fun d' => V c main_v7 (((cfg3.win 0).blk t).view.emb (ix3 (0 : Fin 1) (j 1) (lane (headOf cc) d'))))
        (fun r d' => V c main_v11 (((cfg3.win 1).blk t).view.emb (ix3 (0 : Fin 1) r (lane (headOf cc) d'))))
        (fun r d' => V c main_v15 (((cfg3.win 2).blk t).view.emb (ix3 (0 : Fin 1) r (lane (headOf cc) d')))) (within cc)
      = Attention.rowMix eighth floorWord
        (fun d' => V c main_v7 (ix3 (⟨win3_5.index t (0 : Fin 3), by omega⟩ : Fin 2) (⟨win3_5.index t (1 : Fin 3) * 512 + (j 1).val, by omega⟩ : Fin 2048) (lane (headOf cc) d')))
        (fun r d' => V c main_v11 (ix3 (⟨win3_5.index t (0 : Fin 3), by omega⟩ : Fin 2) r (lane (headOf cc) d')))
        (fun r d' => V c main_v15 (ix3 (⟨win3_5.index t (0 : Fin 3), by omega⟩ : Fin 2) r (lane (headOf cc) d'))) (within cc)
    simp only [eq, ek, ev]
  show Attention.affineRow (fun cc : Fin 1024 => Tile.tile (iblk3 V c 0 t) (iblk3 V c 1 t) (iblk3 V c 2 t) (ix2 (j 1) cc))
      (fun d e => V c main_v3 (((cfg3.win 3).blk t).view.emb (ix2 d e)))
      (fun e => V c main_v16 (((cfg3.win 4).blk t).view.emb (ix2 (0 : Fin 1) e))) (j 2)
    = Attention.affineRow
      (Attention.merged eighth floorWord (fun n s d => V c main_v7 (ix3 n s d)) (fun n s d => V c main_v11 (ix3 n s d))
        (fun n s d => V c main_v15 (ix3 n s d)) (⟨win3_5.index t (0 : Fin 3), by omega⟩ : Fin 2)
        (⟨win3_5.index t (1 : Fin 3) * 512 + (j 1).val, by omega⟩ : Fin 2048))
      (fun d e => V c main_v3 (ix2 d e)) (fun e => V c main_v16 (ix2 (0 : Fin 1) e)) (j 2)
  rw [hrow]
  simp only [ew, eb]

theorem mem_blk3 (t : Fin cfg3.N) (i : S2x2048x1024.Idx) :
    i ∈ ((cfg3.win 5).blk t).view.set ↔ ∀ a : Fin 3, win3_5.index t a * S1x512x1024.size a ≤ (i a).val
      ∧ (i a).val < win3_5.index t a * S1x512x1024.size a + S1x512x1024.size a := by
  show i ∈ ((View.whole main_v17).slice (win3_5.rect t)).set ↔ _
  rw [View.set_slice_whole, Rect.mem_set_unit]
  exact Iff.rfl

/-- The eight blocks fill the array: after the launch it is the launch's function of its inputs, everywhere. -/
theorem final3 (hhead : HeadAt (k3_pay2 (F := Ideal))) (hout : OutAt (k3_pay1 (F := Ideal))) (c : Dev nD) :
    (dat3 V c).arrAt 5 cfg3.N = attnOut (V c main_v7) (V c main_v11) (V c main_v15) (V c main_v3) (V c main_v16) :=
  (dat3 V c).arrAt_eq_of_cover 5 _ (fun t _ => flushed3_eq V hhead hout c t) fun i => by
    have hi0 : (i 0).val < 2 := (i 0).isLt
    have hi1 : (i 1).val < 2048 := (i 1).isLt
    have hi2 : (i 2).val < 1024 := (i 2).isLt
    obtain ⟨t, ht⟩ := idx_onto3 ⟨(i 0).val, hi0⟩ ⟨(i 1).val / 512, by omega⟩
    have q0 : win3_5.index t (0 : Fin 3) = (i 0).val := congrFun ht 0
    have q1 : win3_5.index t (1 : Fin 3) = (i 1).val / 512 := congrFun ht 1
    have q2 : win3_5.index t (2 : Fin 3) = 0 := congrFun ht 2
    refine ⟨t, flush3_5 t, ?_⟩
    rw [mem_blk3]
    intro a
    match a with
    | ⟨0, _⟩ => show win3_5.index t (0 : Fin 3) * 1 ≤ (i 0).val ∧ (i 0).val < win3_5.index t (0 : Fin 3) * 1 + 1; omega
    | ⟨1, _⟩ => show win3_5.index t (1 : Fin 3) * 512 ≤ (i 1).val ∧ (i 1).val < win3_5.index t (1 : Fin 3) * 512 + 512; omega
    | ⟨2, _⟩ => show win3_5.index t (2 : Fin 3) * 1024 ≤ (i 2).val ∧ (i 2).val < win3_5.index t (2 : Fin 3) * 1024 + 1024; omega

end Cert.KernelIdeal.Attn

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.LibRowsByRows.lean ====
/-
  Two reads at an entry (p, u), on the extended reals.

  The product of an a × K array by a b × K array with the LAST axis of both contracted, formed into the zero
  accumulator, is the sum over k of lhs (p, k) · rhs (u, k): each output entry is the inner product of a row of
  the left operand with a ROW of the right one (a weight array kept as outputs × inputs).  The operands may be
  typed at any float formats.  The dimension record enters through its contracted rank and extent and four facts
  about where it sends an output index and a contraction index.

  A row of n numbers kept as a 1 × n array and repeated down a rows reads its entry u.

  Nothing here knows a program.
-/
import proofs.«170793_j1580547968007_2_alg».proof.Proof.LibAttnRead

noncomputable section

open scoped BigOperators

namespace Cert.RowsByRows

open Idealize.ShloMosaic Idealize.ShloMosaic.ValueIdx

variable {a b K : ℕ} {φ₁ φ₂ : FTy}

/-- Rows against rows: the entry (p, u) of the product is Σ_k lhs (p, k) · rhs (u, k). -/
theorem matmul_rows_rows_apply (D : DotDims ⟨2, ![a, K]⟩ ⟨2, ![b, K]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (lhs : FVec Ideal ⟨2, ![a, K]⟩ φ₁) (rhs : FVec Ideal ⟨2, ![b, K]⟩ φ₂) (p : Fin a) (u : Fin b) :
    FloatOps.matmul D prec lhs rhs (constant ⟨2, ![a, b]⟩ .f32 0x00000000#32) (ix2 p u)
      = ∑ k : Fin K, lhs (ix2 p k) * rhs (ix2 u k) := by
  refine Cert.AttnRead.matmul_zero_single_apply D prec hr hs lhs rhs (ix2 p u) (fun k => ix2 p k) (fun k => ix2 u k)
    (fun k => ?_) (fun k => ?_)
  · have hk := contrEquiv1_symm_val D K hr hs k
    funext ax
    apply Fin.ext
    match ax with
    | ⟨0, _⟩ => exact hl0 _ _
    | ⟨1, _⟩ => exact (hl1 _ _).trans hk
  · have hk := contrEquiv1_symm_val D K hr hs k
    funext ax
    apply Fin.ext
    match ax with
    | ⟨0, _⟩ => exact hr0 _ _
    | ⟨1, _⟩ => exact (hr1 _ _).trans hk

/-- A 1 × n row, cast to its own shape and repeated down a rows, reads at (p, u) the row's entry u. -/
theorem biasRow_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

end Cert.RowsByRows

end
-- ==== Proof.BlockMathLinear.lean ====
/-
  The three row-projection kernels at an entry, on the extended reals.  Each forms, for a tile of 1024 rows,
  the product of the tile (1024 × 1024) by a 1024 × 1024 weight into the zero accumulator and adds a bias row
  repeated down the rows; the two narrowings of format are the identity on the extended reals.  So the entry
  (r, e) of the result is the sum over d of x (r, d) · W (d, e), plus b e: the affine map of the specification
  applied to row r.
-/
import proofs.«170793_j1580547968007_2_alg».proof.Proof.Gen.KernelIdeal.Skeleton
import proofs.«170793_j1580547968007_2_alg».proof.Proof.Attention
import proofs.«170793_j1580547968007_2_alg».proof.Proof.LibRowsProduct
import proofs.«170793_j1580547968007_2_alg».proof.Proof.LibRowsByRows

noncomputable section

open scoped BigOperators

namespace Cert.BlockMath

open Idealize.ShloMosaic Idealize.ShloMosaic.ValueIdx Cert.KernelIdeal Cert.KernelIdeal.Gen

/-! ## Where the product's dimension record sends an output index and a contraction index -/

/-- The left operand's row follows the output's row. -/
theorem lin_lhs0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The left operand's column is the contracted coordinate. -/
theorem lin_lhs1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q

/-- The right operand's row is the contracted coordinate. -/
theorem lin_rhs0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q

/-- The right operand's column follows the output's column. -/
theorem lin_rhs1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The projection kernels at an entry -/

/-- The first projection kernel's stored tile at (r, e) is the affine map of row r at column e. -/
theorem linear0 (v0 : Vec Ideal S1024x1024 .f32) (v3 : Vec Ideal S1024x1024 .bf16) (v6 : Vec Ideal S1x1024 .f32)
    (r e : Fin 1024) :
    k0_pay1 v0 v3 v6 (ix2 r e)
      = Cert.Attention.affineRow (fun d => v0 (ix2 r d)) (fun d e' => v3 (ix2 d e')) (fun e' => v6 (ix2 0 e')) e := by
  unfold k0_pay1 Cert.Attention.affineRow
  dsimp only
  show (matmul (F := Ideal) dot_S1024x1024_S1024x1024_S1024x1024_1_0_0_1_n_n none _ _ _ (ix2 r e) : EReal)
      + broadcastTo S1024x1024 (shapeCast S1x1024 v6 shapeCasts_S1x1024_S1x1024) broadcasts_S1x1024_S1024x1024 (ix2 r e) = _
  refine congrArg₂ (· + ·) ?_ ?_
  · refine (Cert.RowsProduct.matmul_zero_rows_apply dot_S1024x1024_S1024x1024_S1024x1024_1_0_0_1_n_n none rfl rfl
      lin_lhs0 lin_lhs1 lin_rhs0 lin_rhs1 _ _ r e).trans ?_
    refine Finset.sum_congr rfl fun k _ => ?_
    exact congrArg₂ (· * ·) (congrFun (shapeCast_self v0 _) (ix2 r k)) (congrFun (shapeCast_self v3 _) (ix2 k e))
  · exact Cert.RowsByRows.biasRow_apply v6 _ _ r e

/-- The second projection kernel is the same arithmetic. -/
theorem linear1 (v0 : Vec Ideal S1024x1024 .f32) (v3 : Vec Ideal S1024x1024 .bf16) (v6 : Vec Ideal S1x1024 .f32)
    (r e : Fin 1024) :
    k1_pay1 v0 v3 v6 (ix2 r e)
      = Cert.Attention.affineRow (fun d => v0 (ix2 r d)) (fun d e' => v3 (ix2 d e')) (fun e' => v6 (ix2 0 e')) e :=
  linear0 v0 v3 v6 r e

/-- The third projection kernel is the same arithmetic. -/
theorem linear2 (v0 : Vec Ideal S1024x1024 .f32) (v3 : Vec Ideal S1024x1024 .bf16) (v6 : Vec Ideal S1x1024 .f32)
    (r e : Fin 1024) :
    k2_pay1 v0 v3 v6 (ix2 r e)
      = Cert.Attention.affineRow (fun d => v0 (ix2 r d)) (fun d e' => v3 (ix2 d e')) (fun e' => v6 (ix2 0 e')) e :=
  linear0 v0 v3 v6 r e

end Cert.BlockMath

end
-- ==== Proof.BlockMathOut.lean ====
/-
  The output projection at an entry, on the extended reals.  For a tile of 512 merged rows the kernel forms the
  product of the tile (512 × 1024) by the 1024 × 1024 weight into the zero accumulator, adds the bias row repeated
  down the rows, and gives the result a leading unit axis.  So the entry (0, p, e) of the stored block is the sum
  over c of merged (p, c) · W (c, e), plus b e: the affine map of the specification applied to row p.
-/
import proofs.«170793_j1580547968007_2_alg».proof.Proof.Gen.KernelIdeal.Skeleton
import proofs.«170793_j1580547968007_2_alg».proof.Proof.Attention
import proofs.«170793_j1580547968007_2_alg».proof.Proof.LibRowsProduct
import proofs.«170793_j1580547968007_2_alg».proof.Proof.LibRowsByRows
import proofs.«170793_j1580547968007_2_alg».proof.Proof.LibAttnRead

noncomputable section

open scoped BigOperators

namespace Cert.BlockMath

open Idealize.ShloMosaic Idealize.ShloMosaic.ValueIdx Cert.KernelIdeal Cert.KernelIdeal.Gen

/-! ## Where the product's dimension record sends an output index and a contraction index -/

/-- The left operand's row follows the output's row. -/
theorem out_lhs0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- The left operand's column is the contracted coordinate. -/
theorem out_lhs1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q

/-- The right operand's row is the contracted coordinate. -/
theorem out_rhs0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q

/-- The right operand's column follows the output's column. -/
theorem out_rhs1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The output projection at an entry -/

/-- The stored block at (0, p, e) is the affine map of merged row p at column e. -/
theorem outProj (v384 : Vec Ideal S512x1024 .bf16) (v385 : Vec Ideal S1024x1024 .bf16) (v388 : Vec Ideal S1x1024 .f32)
    (p : Fin 512) (e : Fin 1024) :
    k3_pay1 v384 v385 v388 (ix3 0 p e)
      = Cert.Attention.affineRow (fun c => v384 (ix2 p c)) (fun c e' => v385 (ix2 c e')) (fun e' => v388 (ix2 0 e')) e := by
  unfold k3_pay1 Cert.Attention.affineRow
  dsimp only
  refine (Cert.AttnRead.shapeCast_split_apply (a := 1) (b := 512) _ shapeCasts_S512x1024_S1x512x1024 0 p e p (by simp)).trans ?_
  show (matmul (F := Ideal) dot_S512x1024_S1024x1024_S512x1024_1_0_0_1_n_n none _ _ _ (ix2 p e) : EReal)
      + broadcastTo S512x1024 (shapeCast S1x1024 v388 shapeCasts_S1x1024_S1x1024) broadcasts_S1x1024_S512x1024 (ix2 p e) = _
  refine congrArg₂ (· + ·) ?_ ?_
  · refine (Cert.RowsProduct.matmul_zero_rows_apply dot_S512x1024_S1024x1024_S512x1024_1_0_0_1_n_n none rfl rfl
      out_lhs0 out_lhs1 out_rhs0 out_rhs1 _ _ p e).trans ?_
    refine Finset.sum_congr rfl fun k _ => ?_
    exact congrArg (v384 (ix2 p k) * ·) (congrFun (shapeCast_self v385 _) (ix2 k e))
  · exact Cert.RowsByRows.biasRow_apply v388 _ _ p e

end Cert.BlockMath

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.LibRowMax.lean ====
/-
  A maximum along the last axis read at an index built from coordinates, at the extended reals: the lane
  maximum of an `a × b` array from the bottom word, and a host reduction with a maximum body over the last axis
  of an `a × b × c` array.  Both are the fold of `max`, from the starting value, over the reduced axis's
  coordinates, in any order.  Nothing here knows a program.
-/
import Idealize.ShloMosaic.Lib.ValueIdx
import Idealize.ShloMosaic.PureOps.Ideal.Laws

noncomputable section

namespace Cert.RowMax

open Idealize.ShloMosaic Idealize.ShloMosaic.ValueIdx

/-- At the extended reals a maximum along the lanes of an `a × b` array, from the word `0xFF800000`, is at row `r`
    the fold of `max` over the row's entries. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec FTy.f32.bits) = FKind.maximumf.neutral .f32 hφ) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  show (Finset.univ : Finset (Fin b)).fold max (Ideal.ofBits .f32 0xFF800000#32) (fun k => src (h.lift (ix1 r) k)) = _
  refine congrArg (fun f => Finset.fold max (Ideal.ofBits .f32 0xFF800000#32) f (Finset.univ : Finset (Fin b)))
    (funext fun k => congrArg src (funext fun d => Fin.ext ?_))
  match d with
  | ⟨0, _⟩ => rfl
  | ⟨1, _⟩ => rfl

/-- At the extended reals a host reduction with a maximum body over the last axis of an `a × b × c` array is, at
    `(p, q)`, the fold of `max` from the initial value over the entries `(p, q, ·)`. -/
theorem hostMax3_apply {a b c : ℕ} {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (fun k => x (h.lift (ix2 p q) k)) = _
  refine congrArg (fun f => Finset.fold max (init (Shape.Idx.first hu)) f (Finset.univ : Finset (Fin c)))
    (funext fun k => congrArg x (funext fun d => Fin.ext ?_))
  match d with
  | ⟨0, _⟩ => rfl
  | ⟨1, _⟩ => rfl
  | ⟨2, _⟩ => rfl

end Cert.RowMax

end
-- ==== Proof.BlockMathHead.lean ====
/-
  One attention head of the kernel at an entry, on the extended reals.

  The head reads a 512-row slice of queries and all 2048 rows of keys and values, 64 lanes each, every slice kept
  with a leading unit axis.  It forms the 512 × 2048 scores (each query row against each KEY ROW, times the
  scale), shifts every row of scores by the row's maximum, exponentiates, divides every row by its sum, and
  multiplies the 512 × 2048 normalised weights by the 2048 × 64 values.  The narrowings of format are the identity
  on the extended reals.  Stage by stage the arrays are read at an entry: the score at (p, j) is the row score of
  the specification, the shifted exponential is its row weight, the row sum its row mass, and the entry (p, d) of
  the product is the specification's head output of query row p at lane d.
-/
import proofs.«170793_j1580547968007_2_alg».proof.Proof.Gen.KernelIdeal.Skeleton
import proofs.«170793_j1580547968007_2_alg».proof.Proof.Attention
import proofs.«170793_j1580547968007_2_alg».proof.Proof.LibRowsProduct
import proofs.«170793_j1580547968007_2_alg».proof.Proof.LibRowsByRows
import proofs.«170793_j1580547968007_2_alg».proof.Proof.LibAttnRead
import proofs.«170793_j1580547968007_2_alg».proof.Proof.LibVecRead
import proofs.«170793_j1580547968007_2_alg».proof.Proof.LibRowMax

noncomputable section

open scoped BigOperators

namespace Cert.BlockMath

open Idealize.ShloMosaic Idealize.ShloMosaic.ValueIdx Cert.KernelIdeal Cert.KernelIdeal.Gen

/-! ## Where the two products' dimension records send an output index and a contraction index -/

/-- Queries against keys: the left operand's row follows the output's row. -/
theorem qk_lhs0 (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl

/-- Queries against keys: the left operand's lane is the contracted coordinate. -/
theorem qk_lhs1 (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q

/-- Queries against keys: the right operand's ROW follows the output's column. -/
theorem qk_rhs0 (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- Queries against keys: the right operand's lane is the contracted coordinate. -/
theorem qk_rhs1 (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

/-- Weights against values: the left operand's row follows the output's row. -/
theorem pv_lhs0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

/-- Weights against values: the left operand's column is the contracted coordinate. -/
theorem pv_lhs1 (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q

/-- Weights against values: the right operand's row is the contracted coordinate. -/
theorem pv_rhs0 (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q

/-- Weights against values: the right operand's lane follows the output's lane. -/
theorem pv_rhs1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## The head's arrays, named -/

/-- The 512 × 2048 scores: the query slice against the key slice, lanes contracted, times the scale word. -/
def scoreArr (v0 : Vec Ideal S1x512x64 .bf16) (v2 : Vec Ideal S1x2048x64 .bf16) : FVec Ideal S512x2048 .f32 :=
  mulf
    (matmul dot_S512x64_S2048x64_S512x2048_1_1_0_0_n_n none
      (shapeCast S512x64 v0 shapeCasts_S1x512x64_S512x64 : FVec Ideal S512x64 .bf16)
      (shapeCast S2048x64 v2 shapeCasts_S1x2048x64_S2048x64 : FVec Ideal S2048x64 .bf16)
      (constant S512x2048 .f32 0x00000000#32))
    (broadcast S512x2048 (Scalar.ofBits (F := Ideal) .f32 0x3E000000#32))

/-- A row maximum, kept as a column and repeated along the row. -/
def rowMaxArr (s : FVec Ideal S512x2048 .f32) : FVec Ideal S512x2048 .f32 :=
  broadcastTo S512x2048
    (shapeCast S512x1 (multiReduction (F := Ideal) .maximumf [1] S512 s 0xFF800000#32 reduces_S512x2048_S512 (.inl rfl) rfl)
      shapeCasts_S512_S512x1)
    broadcasts_S512x1_S512x2048

/-- A row sum, kept as a column and repeated along the row. -/
def rowSumArr (w : FVec Ideal S512x2048 .f32) : FVec Ideal S512x2048 .f32 :=
  broadcastTo S512x2048
    (shapeCast S512x1 (multiReduction (F := Ideal) .add [1] S512 w 0x00000000#32 reduces_S512x2048_S512 (.inl rfl) rfl)
      shapeCasts_S512_S512x1)
    broadcasts_S512x1_S512x2048

/-- The exponentials of the scores shifted by their row maximum. -/
def weightArr (v0 : Vec Ideal S1x512x64 .bf16) (v2 : Vec Ideal S1x2048x64 .bf16) : FVec Ideal S512x2048 .f32 :=
  exp (subf (scoreArr v0 v2) (rowMaxArr (scoreArr v0 v2)))

/-- The weights divided by their row sum, narrowed. -/
def normArr (v0 : Vec Ideal S1x512x64 .bf16) (v2 : Vec Ideal S1x2048x64 .bf16) : FVec Ideal S512x2048 .bf16 :=
  truncf .bf16 (divf (weightArr v0 v2) (rowSumArr (weightArr v0 v2))) bitsLt_bf16_f32

/-- The head's stored tile is the normalised weights times the value slice, narrowed. -/
theorem pay2_eq (v0 : Vec Ideal S1x512x64 .bf16) (v2 v4 : Vec Ideal S1x2048x64 .bf16) :
    k3_pay2 v0 v2 v4
      = shapeCast S512x64
          (truncf .bf16
            (matmul dot_S512x2048_S2048x64_S512x64_1_0_0_1_n_n none (normArr v0 v2)
              (shapeCast S2048x64 v4 shapeCasts_S1x2048x64_S2048x64 : FVec Ideal S2048x64 .bf16)
              (constant S512x64 .f32 0x00000000#32))
            bitsLt_bf16_f32 : FVec Ideal S512x64 .bf16)
          shapeCasts_S512x64_S512x64 := rfl

/-! ## The arrays at an entry -/

/-- The query slice viewed without its leading unit axis reads the slice at (0, ·, ·). -/
theorem q_read (v0 : Vec Ideal S1x512x64 .bf16) (p : Fin 512) (d : Fin 64) :
    shapeCast S512x64 v0 shapeCasts_S1x512x64_S512x64 (ix2 p d) = v0 (ix3 0 p d) :=
  Cert.AttnRead.shapeCast_merge_apply (a := 1) (b := 512) v0 shapeCasts_S1x512x64_S512x64 0 p d p (by simp)

/-- A key or value slice viewed without its leading unit axis reads the slice at (0, ·, ·). -/
theorem kv_read (v : Vec Ideal S1x2048x64 .bf16) (j : Fin 2048) (d : Fin 64) :
    shapeCast S2048x64 v shapeCasts_S1x2048x64_S2048x64 (ix2 j d) = v (ix3 0 j d) :=
  Cert.AttnRead.shapeCast_merge_apply (a := 1) (b := 2048) v shapeCasts_S1x2048x64_S2048x64 0 j d j (by simp)

/-- The score at (p, j) is the specification's score of query row p against key row j. -/
theorem scoreArr_apply (v0 : Vec Ideal S1x512x64 .bf16) (v2 : Vec Ideal S1x2048x64 .bf16) (p : Fin 512) (j : Fin 2048) :
    scoreArr v0 v2 (ix2 p j) = Cert.Attention.rowScore (Ideal.ofBits .f32 0x3E000000#32) (fun d' => v0 (ix3 0 p d')) (fun j d' => v2 (ix3 0 j d')) j := by
  unfold scoreArr Cert.Attention.rowScore
  show (matmul (F := Ideal) dot_S512x64_S2048x64_S512x2048_1_1_0_0_n_n none _ _ _ (ix2 p j) : EReal) * Ideal.ofBits .f32 0x3E000000#32 = _
  refine congrArg (· * Ideal.ofBits .f32 0x3E000000#32) ?_
  refine (Cert.RowsByRows.matmul_rows_rows_apply dot_S512x64_S2048x64_S512x2048_1_1_0_0_n_n none rfl rfl qk_lhs0 qk_lhs1 qk_rhs0 qk_rhs1 _ _ p j).trans ?_
  exact Finset.sum_congr rfl fun k _ => congrArg₂ (· * ·) (q_read v0 p k) (kv_read v2 j k)

/-- The repeated row maximum at (p, j) is the fold of max over row p, from the bottom word. -/
theorem rowMaxArr_apply (s : FVec Ideal S512x2048 .f32) (p : Fin 512) (j : Fin 2048) :
    rowMaxArr s (ix2 p j)
      = (Finset.univ : Finset (Fin 2048)).fold max (Ideal.ofBits .f32 0xFF800000#32) (fun k => s (ix2 p k)) := by
  unfold rowMaxArr
  refine (Cert.VecRead.broadcastTo_col_apply _ broadcasts_S512x1_S512x2048 p j).trans ?_
  refine (Cert.VecRead.shapeCast_col_apply _ shapeCasts_S512_S512x1 p 0).trans ?_
  exact Cert.RowMax.laneMax_apply s reduces_S512x2048_S512 _ _ p

/-- The repeated row sum at (p, j) is the finite sum over row p. -/
theorem rowSumArr_apply (w : FVec Ideal S512x2048 .f32) (p : Fin 512) (j : Fin 2048) :
    rowSumArr w (ix2 p j) = ∑ k : Fin 2048, w (ix2 p k) := by
  unfold rowSumArr
  refine (Cert.VecRead.broadcastTo_col_apply _ broadcasts_S512x1_S512x2048 p j).trans ?_
  refine (Cert.VecRead.shapeCast_col_apply _ shapeCasts_S512_S512x1 p 0).trans ?_
  exact Cert.VecRead.laneSum_apply w reduces_S512x2048_S512 _ _ p

/-- The weight at (p, j) is the specification's row weight. -/
theorem weightArr_apply (v0 : Vec Ideal S1x512x64 .bf16) (v2 : Vec Ideal S1x2048x64 .bf16) (p : Fin 512) (j : Fin 2048) :
    weightArr v0 v2 (ix2 p j) = Cert.Attention.rowWeight (Ideal.ofBits .f32 0x3E000000#32) (Ideal.ofBits .f32 0xFF800000#32) (fun d' => v0 (ix3 0 p d')) (fun j d' => v2 (ix3 0 j d')) j := by
  unfold weightArr Cert.Attention.rowWeight Cert.Attention.rowPeak
  show Ideal.exp (scoreArr v0 v2 (ix2 p j) - rowMaxArr (scoreArr v0 v2) (ix2 p j)) = _
  refine congrArg Ideal.exp (congrArg₂ (· - ·) (scoreArr_apply v0 v2 p j) ?_)
  refine (rowMaxArr_apply _ p j).trans ?_
  exact congrArg (fun f => Finset.fold max (Ideal.ofBits .f32 0xFF800000#32) f (Finset.univ : Finset (Fin 2048)))
    (funext fun k => scoreArr_apply v0 v2 p k)

/-- The normalised weight at (p, j) is the row weight over the row mass. -/
theorem normArr_apply (v0 : Vec Ideal S1x512x64 .bf16) (v2 : Vec Ideal S1x2048x64 .bf16) (p : Fin 512) (j : Fin 2048) :
    normArr v0 v2 (ix2 p j)
      = Ideal.div (Cert.Attention.rowWeight (Ideal.ofBits .f32 0x3E000000#32) (Ideal.ofBits .f32 0xFF800000#32) (fun d' => v0 (ix3 0 p d')) (fun j d' => v2 (ix3 0 j d')) j) (Cert.Attention.rowMass (Ideal.ofBits .f32 0x3E000000#32) (Ideal.ofBits .f32 0xFF800000#32) (fun d' => v0 (ix3 0 p d')) (fun j d' => v2 (ix3 0 j d'))) := by
  unfold normArr Cert.Attention.rowMass
  show Ideal.div (weightArr v0 v2 (ix2 p j)) (rowSumArr (weightArr v0 v2) (ix2 p j)) = _
  refine congrArg₂ Ideal.div (weightArr_apply v0 v2 p j) ?_
  refine (rowSumArr_apply _ p j).trans ?_
  exact Finset.sum_congr rfl fun k _ => weightArr_apply v0 v2 p k

/-! ## The head at an entry -/

/-- The head's stored tile at (p, d) is the specification's head output of query row p at lane d. -/
theorem head (v0 : Vec Ideal S1x512x64 .bf16) (v2 v4 : Vec Ideal S1x2048x64 .bf16) (p : Fin 512) (d : Fin 64) :
    k3_pay2 v0 v2 v4 (ix2 p d)
      = Cert.Attention.rowMix (Ideal.ofBits .f32 0x3E000000#32) (Ideal.ofBits .f32 0xFF800000#32) (fun d' => v0 (ix3 0 p d')) (fun j d' => v2 (ix3 0 j d')) (fun j d' => v4 (ix3 0 j d')) d := by
  refine (congrFun (pay2_eq v0 v2 v4) (ix2 p d)).trans ?_
  refine (congrFun (shapeCast_self _ shapeCasts_S512x64_S512x64) (ix2 p d)).trans ?_
  show matmul (F := Ideal) dot_S512x2048_S2048x64_S512x64_1_0_0_1_n_n none (normArr v0 v2) _ _ (ix2 p d) = _
  refine (Cert.RowsProduct.matmul_zero_rows_apply dot_S512x2048_S2048x64_S512x64_1_0_0_1_n_n none rfl rfl
    pv_lhs0 pv_lhs1 pv_rhs0 pv_rhs1 (normArr v0 v2) _ p d).trans ?_
  unfold Cert.Attention.rowMix
  exact Finset.sum_congr rfl fun j _ => congrArg₂ (· * ·) (normArr_apply v0 v2 p j) (kv_read v4 j d)

end Cert.BlockMath

end
-- ==== Proof.KernelValue.lean ====
/-
  The idealized kernel's result buffer is the layer of its arguments.  The fourth launch's result is the affine
  image of the heads side by side, computed from the three arrays the first three launches leave; each of those is
  the affine image of the rows of an argument flattened to 4096 rows, and is read back as a batch of 2 × 2048 rows.
  Flattening and un-flattening cancel (row 2048·n + s of the flat array is row s of sequence n), a bias vector
  read as a one-row matrix is the vector, and the cast of a weight matrix to the narrower format is the identity on
  the extended reals.  So entry (n, s, e) of the result is the layer's.
-/
import proofs.«170793_j1580547968007_2_alg».proof.Proof.KernelRun
import proofs.«170793_j1580547968007_2_alg».proof.Proof.Boundaries
import proofs.«170793_j1580547968007_2_alg».proof.Proof.LinearBlocks
import proofs.«170793_j1580547968007_2_alg».proof.Proof.AttnBlocks
import proofs.«170793_j1580547968007_2_alg».proof.Proof.BlockMathLinear
import proofs.«170793_j1580547968007_2_alg».proof.Proof.BlockMathOut
import proofs.«170793_j1580547968007_2_alg».proof.Proof.BlockMathHead
import proofs.«170793_j1580547968007_2_alg».proof.Proof.LibAttnRead

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem

/-- A bias vector read as a one-row matrix. -/
theorem biasRow_entry (b : S1024.Idx → EReal) (e : Fin 1024) :
    shapeCast S1x1024 b shapeCasts_S1024_S1x1024 (ix2 (0 : Fin 1) e) = b (ix1 e) :=
  shapeCast_apply b shapeCasts_S1024_S1x1024 _ _ (by
    rw [Shape.rowMajor_val_one, Shape.rowMajor_val_two]
    show e.val = 0 * 1024 + e.val
    omega)

/-- A projection launch's result, read back as a batch: entry (n, s, e) is the affine image of row s of
    sequence n of the argument. -/
theorem proj_entry (A : S2x2048x1024.Idx → EReal) (W : S1024x1024.Idx → EReal) (b : S1024.Idx → EReal)
    (n : Fin 2) (s : Fin 2048) (e : Fin 1024) :
    shapeCast S2x2048x1024 (Linear.rowsAffine (shapeCast S4096x1024 A shapeCasts_S2x2048x1024_S4096x1024)
        (truncf (F := Ideal) .bf16 W bitsLt_bf16_f32) (shapeCast S1x1024 b shapeCasts_S1024_S1x1024))
      shapeCasts_S4096x1024_S2x2048x1024 (ix3 n s e)
      = Attention.proj (fun n s d => A (ix3 n s d)) (fun d e => W (ix2 d e)) (fun e => b (ix1 e)) n s e := by
  have hlt : n.val * 2048 + s.val < 4096 := by have := n.isLt; have := s.isLt; omega
  rw [AttnRead.shapeCast_split_apply _ shapeCasts_S4096x1024_S2x2048x1024 n s e ⟨n.val * 2048 + s.val, hlt⟩ rfl]
  show Attention.affineRow
      (fun d => shapeCast S4096x1024 A shapeCasts_S2x2048x1024_S4096x1024 (ix2 (⟨n.val * 2048 + s.val, hlt⟩ : Fin 4096) d))
      (fun d e' => W (ix2 d e')) (fun e' => shapeCast S1x1024 b shapeCasts_S1024_S1x1024 (ix2 (0 : Fin 1) e')) e
    = Attention.affineRow (fun d => A (ix3 n s d)) (fun d e' => W (ix2 d e')) (fun e' => b (ix1 e')) e
  have h1 : (fun d : Fin 1024 => shapeCast S4096x1024 A shapeCasts_S2x2048x1024_S4096x1024 (ix2 (⟨n.val * 2048 + s.val, hlt⟩ : Fin 4096) d))
      = fun d => A (ix3 n s d) :=
    funext fun d => AttnRead.shapeCast_merge_apply A shapeCasts_S2x2048x1024_S4096x1024 n s d ⟨n.val * 2048 + s.val, hlt⟩ rfl
  have h2 : (fun e' : Fin 1024 => shapeCast S1x1024 b shapeCasts_S1024_S1x1024 (ix2 (0 : Fin 1) e')) = fun e' => b (ix1 e') :=
    funext fun e' => biasRow_entry b e'
  rw [h1, h2]

/-- The four launches composed, over any eleven arrays. -/
theorem compose_eq (A0 A1 A2 : S2x2048x1024.Idx → EReal) (A3 : S1024x1024.Idx → EReal) (A4 : S1024.Idx → EReal)
    (A5 : S1024x1024.Idx → EReal) (A6 : S1024.Idx → EReal) (A7 : S1024x1024.Idx → EReal) (A8 : S1024.Idx → EReal)
    (A9 : S1024x1024.Idx → EReal) (A10 : S1024.Idx → EReal) :
    Attn.attnOut
      (shapeCast S2x2048x1024 (Linear.rowsAffine (shapeCast S4096x1024 A0 shapeCasts_S2x2048x1024_S4096x1024)
        (truncf (F := Ideal) .bf16 A3 bitsLt_bf16_f32) (shapeCast S1x1024 A4 shapeCasts_S1024_S1x1024)) shapeCasts_S4096x1024_S2x2048x1024)
      (shapeCast S2x2048x1024 (Linear.rowsAffine (shapeCast S4096x1024 A1 shapeCasts_S2x2048x1024_S4096x1024)
        (truncf (F := Ideal) .bf16 A5 bitsLt_bf16_f32) (shapeCast S1x1024 A6 shapeCasts_S1024_S1x1024)) shapeCasts_S4096x1024_S2x2048x1024)
      (shapeCast S2x2048x1024 (Linear.rowsAffine (shapeCast S4096x1024 A2 shapeCasts_S2x2048x1024_S4096x1024)
        (truncf (F := Ideal) .bf16 A7 bitsLt_bf16_f32) (shapeCast S1x1024 A8 shapeCasts_S1024_S1x1024)) shapeCasts_S4096x1024_S2x2048x1024)
      (truncf (F := Ideal) .bf16 A9 bitsLt_bf16_f32) (shapeCast S1x1024 A10 shapeCasts_S1024_S1x1024)
    = Attention.layer A0 A1 A2 A3 A4 A5 A6 A7 A8 A9 A10 := by
  funext i
  obtain ⟨n, s, e, rfl⟩ : ∃ (n : Fin 2) (s : Fin 2048) (e : Fin 1024), i = ix3 n s e := ⟨i 0, i 1, i 2, eq_ix3 i⟩
  refine Eq.trans ?_ (Attention.layer_apply A0 A1 A2 A3 A4 A5 A6 A7 A8 A9 A10 n s e).symm
  have hq := funext fun n => funext fun s => funext fun d => proj_entry A0 A3 A4 n s d
  have hk := funext fun n => funext fun s => funext fun d => proj_entry A1 A5 A6 n s d
  have hv := funext fun n => funext fun s => funext fun d => proj_entry A2 A7 A8 n s d
  have hb : (fun e' : Fin 1024 => shapeCast S1x1024 A10 shapeCasts_S1024_S1x1024 (ix2 (0 : Fin 1) e')) = fun e' => A10 (ix1 e') :=
    funext fun e' => biasRow_entry A10 e'
  show Attention.affineRow (Attention.merged Attn.eighth Attn.floorWord
        (fun n s d => shapeCast S2x2048x1024 (Linear.rowsAffine (shapeCast S4096x1024 A0 shapeCasts_S2x2048x1024_S4096x1024)
          (truncf (F := Ideal) .bf16 A3 bitsLt_bf16_f32) (shapeCast S1x1024 A4 shapeCasts_S1024_S1x1024)) shapeCasts_S4096x1024_S2x2048x1024 (ix3 n s d))
        (fun n s d => shapeCast S2x2048x1024 (Linear.rowsAffine (shapeCast S4096x1024 A1 shapeCasts_S2x2048x1024_S4096x1024)
          (truncf (F := Ideal) .bf16 A5 bitsLt_bf16_f32) (shapeCast S1x1024 A6 shapeCasts_S1024_S1x1024)) shapeCasts_S4096x1024_S2x2048x1024 (ix3 n s d))
        (fun n s d => shapeCast S2x2048x1024 (Linear.rowsAffine (shapeCast S4096x1024 A2 shapeCasts_S2x2048x1024_S4096x1024)
          (truncf (F := Ideal) .bf16 A7 bitsLt_bf16_f32) (shapeCast S1x1024 A8 shapeCasts_S1024_S1x1024)) shapeCasts_S4096x1024_S2x2048x1024 (ix3 n s d))
        n s)
      (fun c e => A9 (ix2 c e)) (fun e' => shapeCast S1x1024 A10 shapeCasts_S1024_S1x1024 (ix2 (0 : Fin 1) e')) e
    = Attention.affineRow (Attention.merged Attn.eighth Attn.floorWord
        (Attention.proj (Attention.seqs A0) (Attention.mat A3) (Attention.row A4))
        (Attention.proj (Attention.seqs A1) (Attention.mat A5) (Attention.row A6))
        (Attention.proj (Attention.seqs A2) (Attention.mat A7) (Attention.row A8)) n s)
      (Attention.mat A9) (Attention.row A10) e
  rw [hq, hk, hv, hb]
  rfl

variable (m : (ℓ : Loc nD τ sig) → Buf (Elt Ideal) ℓ) (ρ : Dev nD → PrngReg)

/-- The result buffer after the four launches is the layer of the launch memory's argument arrays. -/
theorem result_eq (c : Dev nD) :
    W8 m ρ c (Proc.devRef .tc main_v17)
      = Attention.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  have h5 : W8 m ρ c (Proc.devRef .tc main_v17) = (dat3 (V7 m ρ) c).arrAt 5 cfg3.N := W8_arr m ρ c 5
  rw [h5, Attn.final3 (V7 m ρ) BlockMath.head BlockMath.outProj c,
    Boundary.queries, Boundary.keys, Boundary.values, Boundary.weight3, Boundary.bias3,
    Linear.final0 (V1 m ρ) BlockMath.linear0 c, Linear.final1 (V3 m ρ) BlockMath.linear1 c, Linear.final2 (V5 m ρ) BlockMath.linear2 c,
    Boundary.rows0, Boundary.weight0, Boundary.bias0, Boundary.rows1, Boundary.weight1, Boundary.bias1,
    Boundary.rows2, Boundary.weight2, Boundary.bias2]
  exact compose_eq _ _ _ _ _ _ _ _ _ _ _

/-- The idealized kernel's run, read: the result buffer ends at the layer of the arguments, the arguments unchanged. -/
theorem run : θ_run defs (onTc (τ := τ) (main (F := Ideal))) ⟨m, fun _ => 0, ρ⟩ (fun r => ∀ c : Dev nD,
      r.2.mem ((c.tc : Thread nD τ).loc main_v17)
        = Attention.layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Result.run_result m ρ)

end Cert.KernelIdeal.Layer

end
-- ==== Proof.RefLayerProj.lean ====
/-
  The three projections of the reference.  Each is a product of the rows with a 1024 × 1024 matrix plus a bias row
  (a sum over the contracted coordinate, and the bias read through two broadcasts), then a reshape of the width
  1024 into 16 heads of 64 lanes and a transposition that brings the head in front of the row.  Read at
  (sequence n, head h, row s, lane d) the result is the specification's affine map at row s, column 64·h + d.
-/
import proofs.«170793_j1580547968007_2_alg».proof.Proof.Gen.ReferenceIdeal.Read
import proofs.«170793_j1580547968007_2_alg».proof.Proof.Attention

noncomputable section

open scoped BigOperators

namespace Cert.RefLayer

open Cert.ReferenceIdeal Cert.ReferenceIdeal.Read Cert.Attention Idealize.ShloMosaic Idealize.ShloMosaic.ValueIdx

/-- The reshape [2, 2048, 1024] → [2, 2048, 16, 64] after the transposition [0, 2, 1, 3]: entry (n, h, s, d) of
    the transposed array is entry (n, s, 64·h + d) of the flat one. -/
theorem split_idx (n : Fin 2) (h : Fin 16) (s : Fin 2048) (d : Fin 64) :
    idx_main_v4 (idx_main_v5 (ix4 n h s d)) = ix3 n s (lane h d) := by
  funext a
  apply Fin.ext
  have hn := n.isLt; have hh := h.isLt; have hs := s.isLt; have hd := d.isLt
  match a with
  | ⟨0, _⟩ => show (((n.val * 2048 + s.val) * 16 + h.val) * 64 + d.val) / 2097152 = n.val; omega
  | ⟨1, _⟩ => show (((n.val * 2048 + s.val) * 16 + h.val) * 64 + d.val) / 1024 % 2048 = s.val; omega
  | ⟨2, _⟩ => show (((n.val * 2048 + s.val) * 16 + h.val) * 64 + d.val) % 1024 = 64 * h.val + d.val; omega

/-- A product of the rows with a matrix plus a broadcast bias row, read at (n, s, e). -/
theorem affine_read (x : FVec Ideal ⟨3, ![2, 2048, 1024]⟩ .f32) (W : FVec Ideal ⟨2, ![1024, 1024]⟩ .f32)
    (b : FVec Ideal ⟨1, ![1024]⟩ .f32) (n : Fin 2) (s : Fin 2048) (e : Fin 1024) :
    (∑ k : Fin 1024, x (lidx_main_v0 (ix3 n s e) k) * W (ridx_main_v0 (ix3 n s e) k))
        + b (idx_main_v1 (idx_main_v2 (ix3 n s e)))
      = proj (seqs x) (mat W) (row b) n s e := by
  have el : ∀ k : Fin 1024, lidx_main_v0 (ix3 n s e) k = ix3 n s k := fun k => funext fun a => Fin.ext (by
    match a with
    | ⟨0, _⟩ => rfl
    | ⟨1, _⟩ => rfl
    | ⟨2, _⟩ => rfl)
  have er : ∀ k : Fin 1024, ridx_main_v0 (ix3 n s e) k = ix2 k e := fun k => funext fun a => Fin.ext (by
    match a with
    | ⟨0, _⟩ => rfl
    | ⟨1, _⟩ => rfl)
  have eb : idx_main_v1 (idx_main_v2 (ix3 n s e)) = ix1 e := funext fun a => Fin.ext (by
    match a with
    | ⟨0, _⟩ => rfl)
  simp only [el, er, eb]
  rfl

/-- The query projection, flat: entry (n, s, e). -/
theorem q_flat (x0 : FVec Ideal ⟨3, ![2, 2048, 1024]⟩ .f32) (x3 : FVec Ideal ⟨2, ![1024, 1024]⟩ .f32)
    (x4 : FVec Ideal ⟨1, ![1024]⟩ .f32) (n : Fin 2) (s : Fin 2048) (e : Fin 1024) :
    val_main_v3 (F := Ideal) x0 x3 x4 (ix3 n s e) = proj (seqs x0) (mat x3) (row x4) n s e := by
  rw [val_main_v3_apply, val_main_v0_apply, val_main_v2_apply, val_main_v1_apply, Ideal.addf_def]
  exact affine_read x0 x3 x4 n s e

/-- The query projection by heads: entry (n, h, s, d). -/
theorem q_heads (x0 : FVec Ideal ⟨3, ![2, 2048, 1024]⟩ .f32) (x3 : FVec Ideal ⟨2, ![1024, 1024]⟩ .f32)
    (x4 : FVec Ideal ⟨1, ![1024]⟩ .f32) (n : Fin 2) (h : Fin 16) (s : Fin 2048) (d : Fin 64) :
    val_main_v5 (F := Ideal) x0 x3 x4 (ix4 n h s d) = proj (seqs x0) (mat x3) (row x4) n s (lane h d) := by
  rw [val_main_v5_apply, val_main_v4_apply, split_idx, q_flat]

/-- The key projection by heads: the same three operations on the second argument triple. -/
theorem k_heads (x1 : FVec Ideal ⟨3, ![2, 2048, 1024]⟩ .f32) (x5 : FVec Ideal ⟨2, ![1024, 1024]⟩ .f32)
    (x6 : FVec Ideal ⟨1, ![1024]⟩ .f32) (n : Fin 2) (h : Fin 16) (s : Fin 2048) (d : Fin 64) :
    val_main_v11 (F := Ideal) x1 x5 x6 (ix4 n h s d) = proj (seqs x1) (mat x5) (row x6) n s (lane h d) := by
  rw [val_main_v11_apply, val_main_v10_apply,
    show idx_main_v10 (idx_main_v11 (ix4 n h s d)) = ix3 n s (lane h d) from split_idx n h s d,
    val_main_v9_apply, val_main_v6_apply, val_main_v8_apply, val_main_v7_apply, Ideal.addf_def]
  exact affine_read x1 x5 x6 n s (lane h d)

/-- The value projection by heads: the same three operations on the third argument triple. -/
theorem v_heads (x2 : FVec Ideal ⟨3, ![2, 2048, 1024]⟩ .f32) (x7 : FVec Ideal ⟨2, ![1024, 1024]⟩ .f32)
    (x8 : FVec Ideal ⟨1, ![1024]⟩ .f32) (n : Fin 2) (h : Fin 16) (s : Fin 2048) (d : Fin 64) :
    val_main_v17 (F := Ideal) x2 x7 x8 (ix4 n h s d) = proj (seqs x2) (mat x7) (row x8) n s (lane h d) := by
  rw [val_main_v17_apply, val_main_v16_apply,
    show idx_main_v16 (idx_main_v17 (ix4 n h s d)) = ix3 n s (lane h d) from split_idx n h s d,
    val_main_v15_apply, val_main_v12_apply, val_main_v14_apply, val_main_v13_apply, Ideal.addf_def]
  exact affine_read x2 x7 x8 n s (lane h d)

end Cert.RefLayer

end
-- ==== Proof.RefLayerConst.lean ====
/-
  The one float word of the reference that the specification spells differently: the reference divides the
  scores by the word 0x41000000 (the real 8), the specification multiplies them by the word 0x3E000000 (the
  real 1/8).  On every extended real the two agree.
-/
import Idealize.ShloMosaic.PureOps.Ideal

noncomputable section

namespace Cert.RefLayer

open Idealize.ShloMosaic

/-- The word 0x41000000 denotes the real 8. -/
theorem ofBits_eight : Ideal.ofBits .f32 0x41000000#32 = ((8 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

end Cert.RefLayer

end
-- ==== Proof.LibRowMax4.lean ====
/-
  A host reduction with a maximum body over the last axis of an `a × b × c × e` array, read at an index built
  from coordinates, at the extended reals: at `(p, q, r)` it is the fold of `max`, from the initial value's
  element, over the entries `(p, q, r, ·)`, in any order.  Nothing here knows a program.
-/
import Idealize.ShloMosaic.Lib.ValueIdx
import Idealize.ShloMosaic.PureOps.Ideal.Laws

noncomputable section

namespace Cert.RowMax4

open Idealize.ShloMosaic Idealize.ShloMosaic.ValueIdx

/-- At the extended reals a host reduction with a maximum body over the last axis of an `a × b × c × e` array is,
    at `(p, q, r)`, the fold of `max` from the initial value over the entries `(p, q, r, ·)`. -/
theorem hostMax4_apply {a b c e : ℕ} {u : Shape} (x : FVec Ideal ⟨4, ![a, b, c, e]⟩ .f32) (init : FVec Ideal u .f32)
    (h' : (⟨4, ![a, b, c, e]⟩ : Shape).ReducesTo [3] ⟨3, ![a, b, c]⟩)
    (h : (⟨4, ![a, b, c, e]⟩ : Shape).Reduces [3] ⟨3, ![a, b, c]⟩)
    (hu : 0 < u.numel) (p : Fin a) (q : Fin b) (r : Fin c) :
    Host.reduce (FloatOps.maximumf (F := Ideal) (φ := .f32)) x init h' hu (ix3 p q r)
      = (Finset.univ : Finset (Fin e)).fold max (init (Shape.Idx.first hu)) (fun k => x (ix4 p q r k)) := by
  refine (Host.reduce_eq_fold_single (FloatOps.maximumf (F := Ideal) (φ := .f32)) x init h' h hu (ix3 p q r)).trans ?_
  show (Finset.univ : Finset (Fin e)).fold max (init (Shape.Idx.first hu)) (fun k => x (h.lift (ix3 p q r) k)) = _
  refine congrArg (fun f => Finset.fold max (init (Shape.Idx.first hu)) f (Finset.univ : Finset (Fin e)))
    (funext fun k => congrArg x (funext fun d => Fin.ext ?_))
  match d with
  | ⟨0, _⟩ => rfl
  | ⟨1, _⟩ => rfl
  | ⟨2, _⟩ => rfl
  | ⟨3, _⟩ => rfl

end Cert.RowMax4

end
-- ==== Proof.RefLayerHead.lean ====
/-
  One head of the reference, operation by operation, against the specification's one-row definitions.  With Q, K, V
  the three projections, and for sequence n, head h, query row s:
    the scores      are the products of the head's 64 query lanes with key row j's, divided by 8, which is the
                    specification's dot product times 1/8;
    the row maximum is the fold of max over j from the starting word, and a further maximum with that same word
                    changes nothing, the fold being above its starting value;
    the weights     are the exponentials of the shifted scores;
    the row mass    is the zero word plus their sum, the zero word denoting 0;
    the head output is the sum over j of weight over mass times value row j at the lane.
-/
import proofs.«170793_j1580547968007_2_alg».proof.Proof.RefLayerProj
import proofs.«170793_j1580547968007_2_alg».proof.Proof.RefLayerConst
import proofs.«170793_j1580547968007_2_alg».proof.Proof.LibRowMax4

noncomputable section

open scoped BigOperators

namespace Cert.RefLayer

open Cert.ReferenceIdeal Cert.ReferenceIdeal.Read Cert.Attention Idealize.ShloMosaic Idealize.ShloMosaic.ValueIdx

/-- The specification's scale (the word of 1/8) and the starting value of its maximum (the word of −∞). -/
abbrev eighth : EReal := Ideal.ofBits .f32 0x3E000000#32
abbrev floorWord : EReal := Ideal.ofBits .f32 0xFF800000#32

/-- The 64 lanes of head h of one row, and of every row of a sequence. -/
abbrev headRow (Q : Seqs) (n : Fin 2) (h : Fin 16) (s : Fin 2048) : Fin 64 → EReal := fun d' => Q n s (lane h d')
abbrev headRows (K : Seqs) (n : Fin 2) (h : Fin 16) : Fin 2048 → Fin 64 → EReal := fun j d' => K n j (lane h d')

section

variable (x0 x1 x2 : FVec Ideal ⟨3, ![2, 2048, 1024]⟩ .f32) (x3 x5 x7 : FVec Ideal ⟨2, ![1024, 1024]⟩ .f32)
  (x4 x6 x8 : FVec Ideal ⟨1, ![1024]⟩ .f32)

/-- The scores: entry (n, h, s, j). -/
theorem score_read (n : Fin 2) (h : Fin 16) (s j : Fin 2048) :
    val_main_v20 (F := Ideal) x0 x1 x3 x4 x5 x6 (ix4 n h s j)
      = rowScore eighth (headRow (proj (seqs x0) (mat x3) (row x4)) n h s)
          (headRows (proj (seqs x1) (mat x5) (row x6)) n h) j := by
  have el : ∀ k : Fin 64, lidx_main_v18 (ix4 n h s j) k = ix4 n h s k := fun k => funext fun a => Fin.ext (by
    match a with
    | ⟨0, _⟩ => rfl
    | ⟨1, _⟩ => rfl
    | ⟨2, _⟩ => rfl
    | ⟨3, _⟩ => rfl)
  have er : ∀ k : Fin 64, ridx_main_v18 (ix4 n h s j) k = ix4 n h j k := fun k => funext fun a => Fin.ext (by
    match a with
    | ⟨0, _⟩ => rfl
    | ⟨1, _⟩ => rfl
    | ⟨2, _⟩ => rfl
    | ⟨3, _⟩ => rfl)
  rw [val_main_v20_apply, val_main_v18_apply, val_main_v19_apply, val_main_cst_apply, Ideal.hostDivf_def,
    Ideal.ofBits_def, div_eight]
  simp only [el, er, q_heads, k_heads]
  rfl

/-- The row maximum: entry (n, h, s). -/
theorem peak_read (n : Fin 2) (h : Fin 16) (s : Fin 2048) :
    val_main_v23 (F := Ideal) x0 x1 x3 x4 x5 x6 (ix3 n h s)
      = rowPeak eighth floorWord (headRow (proj (seqs x0) (mat x3) (row x4)) n h s)
          (headRows (proj (seqs x1) (mat x5) (row x6)) n h) := by
  have hfold : val_main_v21 (F := Ideal) x0 x1 x3 x4 x5 x6 (ix3 n h s)
      = (Finset.univ : Finset (Fin 2048)).fold max floorWord
          (fun k => val_main_v20 (F := Ideal) x0 x1 x3 x4 x5 x6 (ix4 n h s k)) :=
    Cert.RowMax4.hostMax4_apply (val_main_v20 (F := Ideal) x0 x1 x3 x4 x5 x6) (val_main_cst_0 (F := Ideal))
      Facts₀.reducesTo_S2x16x2048x2048_S2x16x2048_d3 (by decide) Facts₀.h_S_ n h s
  rw [val_main_v23_apply, val_main_v22_apply, val_main_cst_1_apply, Ideal.maximumf_def, Ideal.ofBits_def, hfold]
  simp only [score_read]
  exact max_eq_right ((Finset.le_fold_max _).mpr (Or.inl le_rfl))

/-- The weights: entry (n, h, s, j). -/
theorem weight_read (n : Fin 2) (h : Fin 16) (s j : Fin 2048) :
    val_main_v27 (F := Ideal) x0 x1 x3 x4 x5 x6 (ix4 n h s j)
      = rowWeight eighth floorWord (headRow (proj (seqs x0) (mat x3) (row x4)) n h s)
          (headRows (proj (seqs x1) (mat x5) (row x6)) n h) j := by
  have ei : idx_main_v24 (idx_main_v25 (ix4 n h s j)) = ix3 n h s := funext fun a => Fin.ext (by
    match a with
    | ⟨0, _⟩ => rfl
    | ⟨1, _⟩ => rfl
    | ⟨2, _⟩ => rfl)
  rw [val_main_v27_apply, val_main_v26_apply, val_main_v25_apply, val_main_v24_apply, ei, Ideal.hostUnary_exp_def,
    Ideal.subf_def, score_read, peak_read]
  rfl

/-- The row mass: entry (n, h, s). -/
theorem mass_read (n : Fin 2) (h : Fin 16) (s : Fin 2048) :
    val_main_v28 (F := Ideal) x0 x1 x3 x4 x5 x6 (ix3 n h s)
      = rowMass eighth floorWord (headRow (proj (seqs x0) (mat x3) (row x4)) n h s)
          (headRows (proj (seqs x1) (mat x5) (row x6)) n h) := by
  have ei : ∀ k : Fin 2048, idx_main_v28 (ix3 n h s) k = ix4 n h s k := fun k => funext fun a => Fin.ext (by
    match a with
    | ⟨0, _⟩ => rfl
    | ⟨1, _⟩ => rfl
    | ⟨2, _⟩ => rfl
    | ⟨3, _⟩ => rfl)
  rw [val_main_v28_apply, val_main_cst_2_apply, Ideal.ofBits_def, Ideal.ofBits_zero_f32, zero_add]
  simp only [ei, weight_read]
  rfl

/-- The head's output: entry (n, h, s, d). -/
theorem head_read (n : Fin 2) (h : Fin 16) (s : Fin 2048) (d : Fin 64) :
    val_main_v32 (F := Ideal) x0 x1 x2 x3 x4 x5 x6 x7 x8 (ix4 n h s d)
      = mix eighth floorWord (proj (seqs x0) (mat x3) (row x4)) (proj (seqs x1) (mat x5) (row x6))
          (proj (seqs x2) (mat x7) (row x8)) n h s d := by
  have el : ∀ k : Fin 2048, lidx_main_v32 (ix4 n h s d) k = ix4 n h s k := fun k => funext fun a => Fin.ext (by
    match a with
    | ⟨0, _⟩ => rfl
    | ⟨1, _⟩ => rfl
    | ⟨2, _⟩ => rfl
    | ⟨3, _⟩ => rfl)
  have er : ∀ k : Fin 2048, ridx_main_v32 (ix4 n h s d) k = ix4 n h k d := fun k => funext fun a => Fin.ext (by
    match a with
    | ⟨0, _⟩ => rfl
    | ⟨1, _⟩ => rfl
    | ⟨2, _⟩ => rfl
    | ⟨3, _⟩ => rfl)
  have ei : ∀ k : Fin 2048, idx_main_v29 (idx_main_v30 (ix4 n h s k)) = ix3 n h s := fun k => funext fun a => Fin.ext (by
    match a with
    | ⟨0, _⟩ => rfl
    | ⟨1, _⟩ => rfl
    | ⟨2, _⟩ => rfl)
  rw [val_main_v32_apply]
  simp only [el, er, val_main_v31_apply, val_main_v30_apply, val_main_v29_apply, ei, Ideal.hostDivf_def,
    weight_read, mass_read, v_heads]
  rfl

end

end Cert.RefLayer

end
-- ==== Proof.RefLayer.lean ====
/-
  The reference is the specification.  After the heads: the transposition that brings the row back in front of
  the head and the reshape of 16 heads × 64 lanes into the width 1024 put head c / 64, lane c % 64 at column c,
  which is the specification's merge; the last product with a matrix plus a bias row is its fourth affine map.
  Entry by entry the reference's result is therefore the specification's layer.
-/
import proofs.«170793_j1580547968007_2_alg».proof.Proof.RefLayerHead

noncomputable section

open scoped BigOperators

namespace Cert.RefLayer

open Cert.ReferenceIdeal Cert.ReferenceIdeal.Read Cert.Attention Idealize.ShloMosaic Idealize.ShloMosaic.ValueIdx

section

variable (x0 x1 x2 : FVec Ideal ⟨3, ![2, 2048, 1024]⟩ .f32) (x3 : FVec Ideal ⟨2, ![1024, 1024]⟩ .f32)
  (x4 : FVec Ideal ⟨1, ![1024]⟩ .f32) (x5 : FVec Ideal ⟨2, ![1024, 1024]⟩ .f32) (x6 : FVec Ideal ⟨1, ![1024]⟩ .f32)
  (x7 : FVec Ideal ⟨2, ![1024, 1024]⟩ .f32) (x8 : FVec Ideal ⟨1, ![1024]⟩ .f32)
  (x9 : FVec Ideal ⟨2, ![1024, 1024]⟩ .f32) (x10 : FVec Ideal ⟨1, ![1024]⟩ .f32)

/-- The heads side by side: entry (n, s, c) of the merged array is head c / 64 at row s, lane c % 64. -/
theorem merged_read (n : Fin 2) (s : Fin 2048) (c : Fin 1024) :
    val_main_v34 (F := Ideal) x0 x1 x2 x3 x4 x5 x6 x7 x8 (ix3 n s c)
      = merged eighth floorWord (proj (seqs x0) (mat x3) (row x4)) (proj (seqs x1) (mat x5) (row x6))
          (proj (seqs x2) (mat x7) (row x8)) n s c := by
  have ei : idx_main_v33 (idx_main_v34 (ix3 n s c)) = ix4 n (headOf c) s (within c) := funext fun a => Fin.ext (by
    have hn := n.isLt; have hs := s.isLt; have hc := c.isLt
    match a with
    | ⟨0, _⟩ => show ((n.val * 2048 + s.val) * 1024 + c.val) / 2097152 = n.val; omega
    | ⟨1, _⟩ => show ((n.val * 2048 + s.val) * 1024 + c.val) / 64 % 16 = c.val / 64; omega
    | ⟨2, _⟩ => show ((n.val * 2048 + s.val) * 1024 + c.val) / 1024 % 2048 = s.val; omega
    | ⟨3, _⟩ => show ((n.val * 2048 + s.val) * 1024 + c.val) % 64 = c.val % 64; omega)
  rw [val_main_v34_apply, val_main_v33_apply, ei, head_read]
  rfl

/-- The result: entry (n, s, e). -/
theorem out_read (n : Fin 2) (s : Fin 2048) (e : Fin 1024) :
    val_main_v38 (F := Ideal) x0 x1 x2 x3 x4 x5 x6 x7 x8 x9 x10 (ix3 n s e)
      = attend eighth floorWord (seqs x0) (seqs x1) (seqs x2) (mat x3) (mat x5) (mat x7) (mat x9)
          (row x4) (row x6) (row x8) (row x10) n s e := by
  have el : ∀ k : Fin 1024, lidx_main_v35 (ix3 n s e) k = ix3 n s k := fun k => funext fun a => Fin.ext (by
    match a with
    | ⟨0, _⟩ => rfl
    | ⟨1, _⟩ => rfl
    | ⟨2, _⟩ => rfl)
  have er : ∀ k : Fin 1024, ridx_main_v35 (ix3 n s e) k = ix2 k e := fun k => funext fun a => Fin.ext (by
    match a with
    | ⟨0, _⟩ => rfl
    | ⟨1, _⟩ => rfl)
  have eb : idx_main_v36 (idx_main_v37 (ix3 n s e)) = ix1 e := funext fun a => Fin.ext (by
    match a with
    | ⟨0, _⟩ => rfl)
  rw [val_main_v38_apply, val_main_v35_apply, val_main_v37_apply, val_main_v36_apply, Ideal.addf_def, eb]
  simp only [el, er, merged_read]
  rfl

/-- The reference's result array is the specification's layer of the eleven argument arrays. -/
theorem ref_eq :
    val_main_v38 (F := Ideal) x0 x1 x2 x3 x4 x5 x6 x7 x8 x9 x10 = layer x0 x1 x2 x3 x4 x5 x6 x7 x8 x9 x10 := by
  funext i
  obtain ⟨n, s, e, rfl⟩ : ∃ (n : Fin 2) (s : Fin 2048) (e : Fin 1024), i = ix3 n s e := ⟨i 0, i 1, i 2, eq_ix3 i⟩
  rw [out_read, layer_apply]

end

end Cert.RefLayer

end
-- ==== Proof.lean ====
/-
  Multi-head attention as four kernel launches against its array-language reference, on the extended reals.

  The kernel projects queries, keys and values with three launches of one affine kernel (each over four blocks
  of 1024 flattened rows), and a fourth launch that, for every block of 512 query rows of a sequence, treats the
  16 heads one after the other — scores against all 2048 keys over the head's 64 lanes times 1/8, shifted by the
  row maximum, exponentiated, divided by the row sum, multiplied with the values — collects the heads side by side
  in a scratch tile and applies the output projection.  The reference does the same with whole-array operations:
  it splits the width into heads by reshaping and transposing, divides the scores by 8 and normalises with the
  same shifted exponentials.  Both results are, entry by entry, the function Attention.layer of the eleven
  arguments: the kernel's by reading what its blocks write back (KernelValue), the reference's by reading its
  operations one at a time (RefLayer).  The two differ only in grouping — blocks against whole arrays, a product
  with 1/8 against a quotient by 8 — and no step needs the inputs to be finite, so the precondition is not used.
  The ideal pass rewrote nothing, so there is nothing to preserve beyond the frames.
-/
import proofs.«170793_j1580547968007_2_alg».proof.Defs
import proofs.«170793_j1580547968007_2_alg».proof.Proof.Gen.Kernel
import proofs.«170793_j1580547968007_2_alg».proof.Proof.Gen.Kernel.Frame
import proofs.«170793_j1580547968007_2_alg».proof.Proof.Gen.KernelIdeal
import proofs.«170793_j1580547968007_2_alg».proof.Proof.Gen.KernelIdeal.Frame
import proofs.«170793_j1580547968007_2_alg».proof.Proof.Gen.ReferenceIdeal
import proofs.«170793_j1580547968007_2_alg».proof.Proof.Gen.ReferenceIdeal.Run
import proofs.«170793_j1580547968007_2_alg».proof.Proof.Gen.ReferenceIdeal.Read
import proofs.«170793_j1580547968007_2_alg».proof.Proof.Gen.Pre_finite_inputs
import proofs.«170793_j1580547968007_2_alg».proof.Proof.KernelValue
import proofs.«170793_j1580547968007_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer of the arguments in their result buffer: the kernel by its four launches read
    block by block, the reference by its operations read one at a time, from memories that agree on the arguments. -/
theorem algebraic : Cert.algebraic_KernelIdeal_ReferenceIdeal := by
  intro m ρ m' ρ' _ hagree
  refine ⟨fun c => Cert.Attention.layer
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v38_eq, Cert.RefLayer.ref_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
